-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048 : Shape := ⟨1, ![2048]⟩
abbrev S1x2048 : Shape := ⟨2, ![1, 2048]⟩
abbrev S8192x2048 : Shape := ⟨2, ![8192, 2048]⟩
abbrev S2048x8192 : Shape := ⟨2, ![2048, 8192]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_arg4 : FVec F S2048x8192 .f32) (main_arg5 : FVec F S8192x2048 .f32) (main_arg6 : FVec F S2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S2048x8192 .f32 := Host.absf main_arg4
  let main_cst_6 : FVec F S_ .f32 := constant S_ .f32 0x7F800000#32
  let main_v20 : FVec F S2048x8192 .f32 := broadcastInDim S2048x8192 ![] bcast_S_S2048x8192 main_cst_6
  let main_v21 : IVec S2048x8192 1 := cmpf .olt main_v19 main_v20
  let main_c_7 : IVec S_ 1 := constantI S_ 1 1#1
  let main_v22 : IVec S_ 1 := (fun x v => Host.reduce IntOp.andi x v reducesTo_S2048x8192_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S2048x2048 .f32) (main_arg1 : FVec F S2048 .f32) (main_arg2 : FVec F S1x2048 .f32) (main_arg3 : FVec F S8192x2048 .f32) (main_arg4 : FVec F S2048x8192 .f32) (main_arg5 : FVec F S8192x2048 .f32) (main_arg6 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_arg6 main_v13 main_v16
-- ==== Kernel.lean ====
abbrev S2048x2048 : Shape := ⟨2, ![2048, 2048]⟩
abbrev S2048 : Shape := ⟨1, ![2048]⟩
abbrev S1x2048 : Shape := ⟨2, ![1, 2048]⟩
abbrev S8192x2048 : Shape := ⟨2, ![8192, 2048]⟩
abbrev S2048x8192 : Shape := ⟨2, ![2048, 8192]⟩
abbrev S256x2048 : Shape := ⟨2, ![256, 2048]⟩
abbrev S256 : Shape := ⟨1, ![256]⟩
abbrev S256x1 : Shape := ⟨2, ![256, 1]⟩
abbrev S2048x256 : Shape := ⟨2, ![2048, 256]⟩

abbrev nBuf : Space → Nat
  | .hbm => 12
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S2048x2048, .bf16⟩
  | .hbm, ⟨10, _⟩ => ⟨S2048x2048, .bf16⟩
  | .hbm, ⟨11, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | .local _ .vmem, ⟨5, _⟩ => ⟨S256x2048, .bf16⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S2048x256, .f32⟩
  | .local _ .vmem, ⟨10, _⟩ => ⟨S2048x256, .f32⟩
  | .local _ .vmem, ⟨11, _⟩ => ⟨S256x2048, .f32⟩
  | .local _ .vmem, ⟨12, _⟩ => ⟨S256x2048, .f32⟩
  | .local _ .vmem, ⟨13, _⟩ => ⟨S2048x2048, .bf16⟩
  | .local _ .vmem, ⟨14, _⟩ => ⟨S256x2048, .f32⟩
  | .local _ .vmem, ⟨15, _⟩ => ⟨S256x2048, .f32⟩
  | .local _ .vmem, ⟨16, _⟩ => ⟨S256x2048, .bf16⟩
  | .local _ .vmem, ⟨17, _⟩ => ⟨S256x2048, .bf16⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def k1_cond1 (i : grid1.Coords) : BitVec 1 :=
  let arg0 : BitVec 32 := BitVec.ofNat 32 (i 0).val
  let c0_i32 : BitVec 32 := 0#32
  let v16 : BitVec 1 := Scalar.cmpi .eq arg0 c0_i32
  let v17 : BitVec 32 := Scalar.extui v16
  let c0_i32_9 : BitVec 32 := 0#32
  let v18 : BitVec 1 := Scalar.cmpi .ne v17 c0_i32_9
  v18

def k1_cond2 (i : grid1.Coords) : BitVec 1 :=
  let arg0 : BitVec 32 := BitVec.ofNat 32 (i 0).val
  let c0_i32_10 : BitVec 32 := 0#32
  let v19 : BitVec 1 := Scalar.cmpi .sgt arg0 c0_i32_10
  let v20 : BitVec 32 := Scalar.extui v19
  let c0_i32_11 : BitVec 32 := 0#32
  let v21 : BitVec 1 := Scalar.cmpi .ne v20 c0_i32_11
  v21

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S2048_S1x2048 : S2048.ShapeCasts S1x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  broadcasts_S256x1_S256x2048 : S256x1.Broadcasts S256x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  natLt_1_32 : 1 < 32
  bitsLt_bf16_f32 : FTy.bits .bf16 < FTy.bits .f32
  packedbf16_S256x2048_S256x2048_0_0 : (Rect.unit (s := S256x2048) ![0, 0] S256x2048.size inb_S256x2048_S256x2048_0_0).PackedRows (EltTy.packing .bf16)
  inb_S2048x256_S2048x256_0_0 : ∀ a, (![0, 0] : Fin 2 → Nat) a + S2048x256.size a ≤ S2048x256.size a
  h_S2048x256 : 0 < S2048x256.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S2048x2048_S2048x2048_0_0 : (Rect.unit (s := S2048x2048) ![0, 0] S2048x2048.size inb_S2048x2048_S2048x2048_0_0).PackedRows (EltTy.packing .bf16)
  shapeCasts_S256x2048_S256x2048 : S256x2048.ShapeCasts S256x2048
  dot_S2048x2048_S256x2048_S2048x256_1_1_0_0_n_n_wf : DotDims.WF S2048x2048 S256x2048 S2048x256 [1] [1] [0] [0] [] []
  dot_S2048x256_S2048x256_S2048x2048_1_1_0_0_n_n_wf : DotDims.WF S2048x256 S2048x256 S2048x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S2048x2048.size a
  hwx0_0 : ∀ i : grid0.Coords, EltTy.bits .f32 = 32 ∨ (Rect.block (s := S2048x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x2048.size a ≤ S2048x2048.size a
  hwx1_0 : ∀ i : grid1.Coords, EltTy.bits .bf16 = 32 ∨ (Rect.block (s := S2048x2048) S2048x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S8192x2048.size a
  hwx1_1 : ∀ i : grid1.Coords, EltTy.bits .f32 = 32 ∨ (Rect.block (s := S8192x2048) S256x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S2048x8192.size a
  hwx1_2 : ∀ i : grid1.Coords, EltTy.bits .f32 = 32 ∨ (Rect.block (s := S2048x8192) S2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x2048.size a ≤ S8192x2048.size a
  hwx1_3 : ∀ i : grid1.Coords, EltTy.bits .f32 = 32 ∨ (Rect.block (s := S8192x2048) S256x2048.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x2048.size a ≤ S2048x2048.size a
  hwx1_4 : ∀ i : grid1.Coords, EltTy.bits .bf16 = 32 ∨ (Rect.block (s := S2048x2048) S2048x2048.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S2048x2048.size a
  hwx2_0 : ∀ i : grid2.Coords, EltTy.bits .f32 = 32 ∨ (Rect.block (s := S2048x2048) S256x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x2048.size a ≤ S2048x2048.size a
  hwx2_1 : ∀ i : grid2.Coords, EltTy.bits .bf16 = 32 ∨ (Rect.block (s := S2048x2048) S256x2048.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2048.size a ≤ S1x2048.size a
  hwx2_2 : ∀ i : grid2.Coords, EltTy.bits .f32 = 32 ∨ (Rect.block (s := S1x2048) S1x2048.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x2048.size a ≤ S2048x2048.size a
  hwx2_3 : ∀ i : grid2.Coords, EltTy.bits .f32 = 32 ∨ (Rect.block (s := S2048x2048) S256x2048.size (cc2_transform_3 i) (hinb2_3 i)).WholeWords (EltTy.packing .f32)

variable [Facts₀]

def dot_S2048x2048_S256x2048_S2048x256_1_1_0_0_n_n : DotDims S2048x2048 S256x2048 S2048x256 where
  lhsContracting := [1]
  rhsContracting := [1]
  lhsNonContracting := [0]
  rhsNonContracting := [0]
  lhsBatch := []
  rhsBatch := []
  wf := dot_S2048x2048_S256x2048_S2048x256_1_1_0_0_n_n_wf
def dot_S2048x256_S2048x256_S2048x2048_1_1_0_0_n_n : DotDims S2048x256 S2048x256 S2048x2048 where
  lhsContracting := [1]
  rhsContracting := [1]
  lhsNonContracting := [0]
  rhsNonContracting := [0]
  lhsBatch := []
  rhsBatch := []
  wf := dot_S2048x256_S2048x256_S2048x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v2) S2048x2048.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S2048x2048.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond1 i == 1#1) && !(k1_cond2 i == 1#1) | ⟨_ + 5, h⟩ => absurd h (Nat.not_lt.2 (Nat.le_add_left _ _))

abbrev win2_0 : Pipeline.Window sig grid2 :=
  Pipeline.Window.ofSpec (Memref.whole main_arg0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S256x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v1) S1x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v0) S256x2048.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2048x2048 : Shape := ⟨2, ![2048, 2048]⟩
abbrev S2048 : Shape := ⟨1, ![2048]⟩
abbrev S1x2048 : Shape := ⟨2, ![1, 2048]⟩
abbrev S8192x2048 : Shape := ⟨2, ![8192, 2048]⟩
abbrev S2048x8192 : Shape := ⟨2, ![2048, 8192]⟩
abbrev S_ : Shape := ⟨0, ![]⟩
abbrev S2048x1 : Shape := ⟨2, ![2048, 1]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048, .f32⟩
  | .hbm, ⟨2, _⟩ => ⟨S1x2048, .f32⟩
  | .hbm, ⟨3, _⟩ => ⟨S8192x2048, .f32⟩
  | .hbm, ⟨4, _⟩ => ⟨S2048x8192, .f32⟩
  | .hbm, ⟨5, _⟩ => ⟨S8192x2048, .f32⟩
  | .hbm, ⟨6, _⟩ => ⟨S2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S2048x1, .f32⟩
  | .hbm, ⟨24, _⟩ => ⟨S2048x1, .f32⟩
  | .hbm, ⟨25, _⟩ => ⟨S2048, .f32⟩
  | .hbm, ⟨26, _⟩ => ⟨S2048, .f32⟩
  | .hbm, ⟨27, _⟩ => ⟨S2048, .f32⟩
  | .hbm, ⟨28, _⟩ => ⟨S_, .f32⟩
  | .hbm, ⟨29, _⟩ => ⟨S2048, .f32⟩
  | .hbm, ⟨30, _⟩ => ⟨S2048, .f32⟩
  | .hbm, ⟨31, _⟩ => ⟨S_, .f32⟩
  | .hbm, ⟨32, _⟩ => ⟨S2048, .f32⟩
  | .hbm, ⟨33, _⟩ => ⟨S2048, .f32⟩
  | .hbm, ⟨34, _⟩ => ⟨S_, .f32⟩
  | .hbm, ⟨35, _⟩ => ⟨S2048, .f32⟩
  | .hbm, ⟨36, _⟩ => ⟨S2048, .i1⟩
  | .hbm, ⟨37, _⟩ => ⟨S2048x8192, .f32⟩
  | .hbm, ⟨38, _⟩ => ⟨S2048x8192, .f32⟩
  | .hbm, ⟨39, _⟩ => ⟨S2048x8192, .f32⟩
  | .hbm, ⟨40, _⟩ => ⟨S2048x8192, .f32⟩
  | .hbm, ⟨41, _⟩ => ⟨S_, .f32⟩
  | .hbm, ⟨42, _⟩ => ⟨S2048x8192, .f32⟩
  | .hbm, ⟨43, _⟩ => ⟨S2048x8192, .f32⟩
  | .hbm, ⟨44, _⟩ => ⟨S_, .f32⟩
  | .hbm, ⟨45, _⟩ => ⟨S2048x8192, .f32⟩
  | .hbm, ⟨46, _⟩ => ⟨S2048x8192, .f32⟩
  | .hbm, ⟨47, _⟩ => ⟨S2048x8192, .f32⟩
  | .hbm, ⟨48, _⟩ => ⟨S2048x8192, .f32⟩
  | .hbm, ⟨49, _⟩ => ⟨S2048x8192, .f32⟩
  | .hbm, ⟨50, _⟩ => ⟨S2048x8192, .f32⟩
  | .hbm, ⟨51, _⟩ => ⟨S8192x2048, .f32⟩
  | .hbm, ⟨52, _⟩ => ⟨S2048x2048, .f32⟩
  | .hbm, ⟨53, _⟩ => ⟨S2048x1, .i1⟩
  | .hbm, ⟨54, _⟩ => ⟨S1x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S2048x2048, .i1⟩
  | .hbm, ⟨59, _⟩ => ⟨S2048x2048, .f32⟩
  | .hbm, ⟨60, _⟩ => ⟨S2048x2048, .f32⟩
  | .hbm, ⟨61, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_5 : Ref sig .tc := ⟨.hbm, 57, rfl⟩
abbrev main_call1_v0 : Ref sig .tc := ⟨.hbm, 58, rfl⟩
abbrev main_call1_v1 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]

class Facts₀ : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  transposes_S1x2048_S2048x1_1_0 : S1x2048.Transposes [1, 0] S2048x1
  shapeCasts_S2048x1_S2048 : S2048x1.ShapeCasts S2048
  bcast_S_S2048 : S_.BroadcastsInDim S2048 (![] : Fin 0 → Fin S2048.rank)
  transposes_S8192x2048_S2048x8192_1_0 : S8192x2048.Transposes [1, 0] S2048x8192
  bcast_S_S2048x8192 : S_.BroadcastsInDim S2048x8192 (![] : Fin 0 → Fin S2048x8192.rank)
  transposes_S2048x8192_S8192x2048_1_0 : S2048x8192.Transposes [1, 0] S8192x2048
  bcast_S_S2048x2048 : S_.BroadcastsInDim S2048x2048 (![] : Fin 0 → Fin S2048x2048.rank)
  dot_S2048x2048_S2048x1_S2048x1_1_0_0_1_n_n_wf : DotDims.WF S2048x2048 S2048x1 S2048x1 [1] [0] [0] [1] [] []
  dot_S2048x2048_S2048x8192_S2048x8192_1_0_0_1_n_n_wf : DotDims.WF S2048x2048 S2048x8192 S2048x8192 [1] [0] [0] [1] [] []
  dot_S2048x8192_S8192x2048_S2048x2048_1_0_0_1_n_n_wf : DotDims.WF S2048x8192 S8192x2048 S2048x2048 [1] [0] [0] [1] [] []

variable [Facts₀]

def dot_S2048x2048_S2048x1_S2048x1_1_0_0_1_n_n : DotDims S2048x2048 S2048x1 S2048x1 where
  lhsContracting := [1]
  rhsContracting := [0]
  lhsNonContracting := [0]
  rhsNonContracting := [1]
  lhsBatch := []
  rhsBatch := []
  wf := dot_S2048x2048_S2048x1_S2048x1_1_0_0_1_n_n_wf
def dot_S2048x2048_S2048x8192_S2048x8192_1_0_0_1_n_n : DotDims S2048x2048 S2048x8192 S2048x8192 where
  lhsContracting := [1]
  rhsContracting := [0]
  lhsNonContracting := [0]
  rhsNonContracting := [1]
  lhsBatch := []
  rhsBatch := []
  wf := dot_S2048x2048_S2048x8192_S2048x8192_1_0_0_1_n_n_wf
def dot_S2048x8192_S8192x2048_S2048x2048_1_0_0_1_n_n : DotDims S2048x8192 S8192x2048 S2048x2048 where
  lhsContracting := [1]
  rhsContracting := [0]
  lhsNonContracting := [0]
  rhsNonContracting := [1]
  lhsBatch := []
  rhsBatch := []
  wf := dot_S2048x8192_S8192x2048_S2048x2048_1_0_0_1_n_n_wf

class Facts : Prop extends Facts₀ where

variable [Facts]
-- ==== Proof.Bits.NormRouter.lean ====
/-
  The first launch: the gated, normalised activations, one 256-row tile of tokens per grid point.
  At a grid point the body reads the 256 rows of x and the two single rows (the norm weight and the
  router weight) and overwrites its whole output tile: each row of x scaled by the reciprocal root of its
  mean square (plus epsilon) and by the norm weight, then multiplied by the row's gate — 1 when the sigmoid
  of the row's router logit exceeds the threshold, else 0.  Stated for any contents `V` of the buffers
  at the launch's entry: the blocks, what the output tile holds after the body, the body's triple at
  every grid point.
-/
import proofs.«175990_g24111946400455_cont_8to1_1544_11_alg».proof.Proof.Gen.Kernel.Launch
import proofs.«175990_g24111946400455_cont_8to1_1544_11_alg».proof.Proof.Gen.Kernel.Skeleton
import proofs.«175990_g24111946400455_cont_8to1_1544_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window that the body only reads holds its block at every point, whether it was fetched
    there or kept from the point before (the block index did not move). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole 256 × 2048 tile and the whole single row, as rectangles. -/
abbrev tile0 : Rect S256x2048 := Rect.unit (s := S256x2048) ![0, 0] S256x2048.size inb_S256x2048_S256x2048_0_0
abbrev row0 : Rect S1x2048 := Rect.unit (s := S1x2048) ![0, 0] S1x2048.size inb_S1x2048_S1x2048_0_0

/-- The output tile after the body: one store of the whole tile, the gated normalised rows of the three blocks. -/
def gated0 (x : Vec F S256x2048 .f32) (nw : Vec F S1x2048 .f32) (rw : Vec F S1x2048 .f32) : Vec F S256x2048 .bf16 :=
  View.canon [⟨tile0, k0_pay1 (View.ld x tile0) (View.ld nw row0) (View.ld rw row0)⟩]

theorem gated0_cover (p : Vec F S256x2048 .bf16) (y : S256x2048.Idx) :
    ∃ pc ∈ ([⟨tile0, p⟩] : List (View.Piece (Elt F) S256x2048 .bf16)), y ∈ pc.1.set :=
  View.cover_of_tiled [⟨tile0, p⟩] S256x2048.size (by rfl) y

set_option maxHeartbeats 1000000 in
/-- The body on whole staging buffers: the three inputs at given contents, the output at anything; it
    ends with the inputs untouched and the output at `gated0` of them. -/
theorem norm_router_triple (c : Dev nD) (E : Set ℕ) (i : grid0.Coords)
    (arg1 : Memref sig .tc .vmem S256x2048 .f32) (harg1 : arg1.IsWhole) (arg2 : Memref sig .tc .vmem S1x2048 .f32) (harg2 : arg2.IsWhole)
    (arg3 : Memref sig .tc .vmem S1x2048 .f32) (harg3 : arg3.IsWhole) (arg4 : Memref sig .tc .vmem S256x2048 .bf16) (harg4 : arg4.IsWhole)
    (x : Vec F S256x2048 .f32) (nw : Vec F S1x2048 .f32) (rw : Vec F S1x2048 .f32) (K : PUnit → sProp 𝕄) :
    iprop(owns (c : Thread nD τ) arg1 fullShare x ∗ owns (c : Thread nD τ) arg2 fullShare nw ∗ owns (c : Thread nD τ) arg3 fullShare rw
        ∗ (∃ d, owns (c : Thread nD τ) arg4 fullShare d)
        ∗ (iprop(owns (c : Thread nD τ) arg1 fullShare x ∗ owns (c : Thread nD τ) arg2 fullShare nw ∗ owns (c : Thread nD τ) arg3 fullShare rw
            ∗ owns (c : Thread nD τ) arg4 fullShare (gated0 x nw rw)) -∗ K ⟨⟩))
      ⊢ wp frame (wpE (defs₀ (F := F)) Variants.none c none) E (cc0__norm_router_kernel i arg1 harg1 arg2 harg2 arg3 harg3 arg4 harg4) K := by
  simp only [cc0__norm_router_kernel_eq_skeleton]; unfold cc0__norm_router_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gated0_cover _)

/-- The launch's proof data on core `c`: the arrays as found; after the body at point `t` each input's
    buffer still at its block and the output's at `gated0` of the three blocks; the invariant holds only what
    the body never touches; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => gated0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = gated0 (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-- What the body is handed at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' buffers hold their blocks, so the triple applies; the invariant
    and what the core owes pass through unread. -/
theorem norm_router_at (c : Dev nD) (t : Fin cfg0.N) :
    handed0 V c t ⊢ wp frame (wpE (defs₀ (F := F)) Variants.none c none) Set.univ (bodyAt0 t) (fun _ => left0 V c t) := by
  unfold handed0 left0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (norm_router_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem norm_router_obligation (c : Dev nD) : BodyObligation (dat0 (F := F) V c) (defs₀ (F := F)) Variants.none () Set.univ := fun t => by
  rw [bigSep_W0, bigSep_W0]
  exact norm_router_at V c t

end Cert.Kernel.Hand

end
-- ==== Proof.Bits.Ffn.lean ====
/-
  The second launch: the feed-forward result, accumulated over 32 blocks of 256 hidden units.
  At grid point j the body reads the whole gated activation array xn, rows 256j … 256j+255 of w1 and of
  w3, and columns 256j … 256j+255 of w2; it forms u = xn · w1ᵀ and v = xn · w3ᵀ over those hidden units,
  h = u · sigmoid(u) · v, and the partial product t_j = h · w2ᵀ.  At j = 0 it overwrites the whole
  output block with t_0; at every later point it overwrites it with (what the block held) + t_j.  The
  output block is the same at every point and is written back to its array only after the last one, so
  after point j it holds t_0 + … + t_j.  Stated for any contents `V` of the buffers at the launch's entry.
-/
import proofs.«175990_g24111946400455_cont_8to1_1544_11_alg».proof.Proof.Gen.Kernel.Launch
import proofs.«175990_g24111946400455_cont_8to1_1544_11_alg».proof.Proof.Gen.Kernel.Skeleton
import proofs.«175990_g24111946400455_cont_8to1_1544_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that the body only reads holds its block at every point, whether it was fetched
    there or kept from the point before (the block index did not move). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole activation array, a block of weight rows and a block of weight columns, as rectangles. -/
abbrev whole1 : Rect S2048x2048 := Rect.unit (s := S2048x2048) ![0, 0] S2048x2048.size inb_S2048x2048_S2048x2048_0_0
abbrev rows1 : Rect S256x2048 := Rect.unit (s := S256x2048) ![0, 0] S256x2048.size inb_S256x2048_S256x2048_0_0
abbrev cols1 : Rect S2048x256 := Rect.unit (s := S2048x256) ![0, 0] S2048x256.size inb_S2048x256_S2048x256_0_0

/-- The output block after the FIRST point's body: one store of the whole block, the partial product. -/
def first1 (xn : Vec F S2048x2048 .bf16) (w1 : Vec F S256x2048 .f32) (w2 : Vec F S2048x256 .f32) (w3 : Vec F S256x2048 .f32) : Vec F S2048x2048 .bf16 :=
  View.canon [⟨whole1, k1_pay1 (View.ld w1 rows1) (View.ld w3 rows1) (View.ld w2 cols1) (View.ld xn whole1)⟩]

/-- The output block after a LATER point's body: one store of the whole block, what it held plus the partial product. -/
def later1 (xn : Vec F S2048x2048 .bf16) (w1 : Vec F S256x2048 .f32) (w2 : Vec F S2048x256 .f32) (w3 : Vec F S256x2048 .f32)
    (acc : Vec F S2048x2048 .bf16) : Vec F S2048x2048 .bf16 :=
  View.canon [⟨whole1, k1_pay2 (View.ld w1 rows1) (View.ld w3 rows1) (View.ld w2 cols1) (View.ld xn whole1) (View.ld acc whole1)⟩]

theorem whole1_cover (p : Vec F S2048x2048 .bf16) (y : S2048x2048.Idx) :
    ∃ pc ∈ ([⟨whole1, p⟩] : List (View.Piece (Elt F) S2048x2048 .bf16)), y ∈ pc.1.set :=
  View.cover_of_tiled [⟨whole1, p⟩] S2048x2048.size (by rfl) y

/-- The first branch is taken at the first grid point only, the second at every other point. -/
theorem first_iff : ∀ t : Fin cfg1.N, k1_cond1 (grid1.coords t) = 1#1 ↔ t.val = 0 :=
  (by decide +kernel : ∀ t : Fin grid1.N, k1_cond1 (grid1.coords t) = 1#1 ↔ t.val = 0)
theorem later_iff : ∀ t : Fin cfg1.N, k1_cond2 (grid1.coords t) = 1#1 ↔ t.val ≠ 0 :=
  (by decide +kernel : ∀ t : Fin grid1.N, k1_cond2 (grid1.coords t) = 1#1 ↔ t.val ≠ 0)

/-- At every coordinate one of the two branches is taken: the output window is never idle. -/
theorem acc_live : ∀ i : grid1.Coords, cfg1.idle 4 i = false := by
  intro i
  have h : ∀ n : Fin 32,
      (!(Scalar.cmpi .ne (Scalar.extui (Scalar.cmpi .eq (BitVec.ofNat 32 n.val) 0#32)) 0#32 == 1#1)
        && !(Scalar.cmpi .ne (Scalar.extui (Scalar.cmpi .sgt (BitVec.ofNat 32 n.val) 0#32)) 0#32 == 1#1)) = false := by
    decide +kernel
  exact h ⟨(i 0).val, (i 0).isLt⟩

set_option maxHeartbeats 1000000 in
/-- The body at the first point, on whole staging buffers: the four inputs at given contents, the output at
    anything; it ends with the inputs untouched and the output at `first1` of them. -/
theorem ffn_first_triple (c : Dev nD) (E : Set ℕ) (i : grid1.Coords) (hc1 : k1_cond1 i = 1#1) (hc2 : ¬ k1_cond2 i = 1#1)
    (arg1 : Memref sig .tc .vmem S2048x2048 .bf16) (harg1 : arg1.IsWhole) (arg2 : Memref sig .tc .vmem S256x2048 .f32) (harg2 : arg2.IsWhole)
    (arg3 : Memref sig .tc .vmem S2048x256 .f32) (harg3 : arg3.IsWhole) (arg4 : Memref sig .tc .vmem S256x2048 .f32) (harg4 : arg4.IsWhole)
    (arg5 : Memref sig .tc .vmem S2048x2048 .bf16) (harg5 : arg5.IsWhole)
    (xn : Vec F S2048x2048 .bf16) (w1 : Vec F S256x2048 .f32) (w2 : Vec F S2048x256 .f32) (w3 : Vec F S256x2048 .f32) (K : PUnit → sProp 𝕄) :
    iprop(owns (c : Thread nD τ) arg1 fullShare xn ∗ owns (c : Thread nD τ) arg2 fullShare w1 ∗ owns (c : Thread nD τ) arg3 fullShare w2
        ∗ owns (c : Thread nD τ) arg4 fullShare w3 ∗ (∃ d, owns (c : Thread nD τ) arg5 fullShare d)
        ∗ (iprop(owns (c : Thread nD τ) arg1 fullShare xn ∗ owns (c : Thread nD τ) arg2 fullShare w1 ∗ owns (c : Thread nD τ) arg3 fullShare w2
            ∗ owns (c : Thread nD τ) arg4 fullShare w3 ∗ owns (c : Thread nD τ) arg5 fullShare (first1 xn w1 w2 w3)) -∗ K ⟨⟩))
      ⊢ wp frame (wpE (defs₀ (F := F)) Variants.none c none) E (cc1__ffn_kernel i arg1 harg1 arg2 harg2 arg3 harg3 arg4 harg4 arg5 harg5) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole1_cover _)

set_option maxHeartbeats 1000000 in
/-- The body at a later point: the output buffer at the running contents `acc`; it ends at `later1` of
    the inputs and `acc`. -/
theorem ffn_later_triple (c : Dev nD) (E : Set ℕ) (i : grid1.Coords) (hc1 : ¬ k1_cond1 i = 1#1) (hc2 : k1_cond2 i = 1#1)
    (arg1 : Memref sig .tc .vmem S2048x2048 .bf16) (harg1 : arg1.IsWhole) (arg2 : Memref sig .tc .vmem S256x2048 .f32) (harg2 : arg2.IsWhole)
    (arg3 : Memref sig .tc .vmem S2048x256 .f32) (harg3 : arg3.IsWhole) (arg4 : Memref sig .tc .vmem S256x2048 .f32) (harg4 : arg4.IsWhole)
    (arg5 : Memref sig .tc .vmem S2048x2048 .bf16) (harg5 : arg5.IsWhole)
    (xn : Vec F S2048x2048 .bf16) (w1 : Vec F S256x2048 .f32) (w2 : Vec F S2048x256 .f32) (w3 : Vec F S256x2048 .f32)
    (acc : Vec F S2048x2048 .bf16) (K : PUnit → sProp 𝕄) :
    iprop(owns (c : Thread nD τ) arg1 fullShare xn ∗ owns (c : Thread nD τ) arg2 fullShare w1 ∗ owns (c : Thread nD τ) arg3 fullShare w2
        ∗ owns (c : Thread nD τ) arg4 fullShare w3 ∗ owns (c : Thread nD τ) arg5 fullShare acc
        ∗ (iprop(owns (c : Thread nD τ) arg1 fullShare xn ∗ owns (c : Thread nD τ) arg2 fullShare w1 ∗ owns (c : Thread nD τ) arg3 fullShare w2
            ∗ owns (c : Thread nD τ) arg4 fullShare w3 ∗ owns (c : Thread nD τ) arg5 fullShare (later1 xn w1 w2 w3 acc)) -∗ K ⟨⟩))
      ⊢ wp frame (wpE (defs₀ (F := F)) Variants.none c none) E (cc1__ffn_kernel i arg1 harg1 arg2 harg2 arg3 harg3 arg4 harg4 arg5 harg5) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole1_cover _)

/-- THE ACCUMULATION. What the output block holds after the body at point `n`: the first partial product at
    the first point; at every later one, what it held after the point before plus that point's partial product. -/
def accAt (c : Dev nD) : (n : ℕ) → n < cfg1.N → Vec F S2048x2048 .bf16
  | 0, hn => first1 (blk1 V c 0 ⟨0, hn⟩) (blk1 V c 1 ⟨0, hn⟩) (blk1 V c 2 ⟨0, hn⟩) (blk1 V c 3 ⟨0, hn⟩)
  | n + 1, hn => later1 (blk1 V c 0 ⟨n + 1, hn⟩) (blk1 V c 1 ⟨n + 1, hn⟩) (blk1 V c 2 ⟨n + 1, hn⟩) (blk1 V c 3 ⟨n + 1, hn⟩)
      (accAt c n (Nat.lt_of_succ_lt hn))

theorem accAt_first (c : Dev nD) (t : Fin cfg1.N) (h0 : t.val = 0) :
    accAt V c t.val t.isLt = first1 (blk1 V c 0 t) (blk1 V c 1 t) (blk1 V c 2 t) (blk1 V c 3 t) := by
  obtain ⟨n, hn⟩ := t
  cases n with
  | zero => rfl
  | succ n => exact absurd h0 (Nat.succ_ne_zero n)

theorem accAt_later (c : Dev nD) (t : Fin cfg1.N) (h0 : t.val ≠ 0) :
    accAt V c t.val t.isLt = later1 (blk1 V c 0 t) (blk1 V c 1 t) (blk1 V c 2 t) (blk1 V c 3 t)
      (accAt V c (t.val - 1) (Nat.lt_of_le_of_lt (Nat.sub_le _ _) t.isLt)) := by
  obtain ⟨n, hn⟩ := t
  cases n with
  | zero => exact absurd rfl h0
  | succ n => rfl

/-- The launch's proof data on core `c`: the arrays as found; after the body at point `t` each input's
    buffer still at its block and the output's at the running sum `accAt`; the invariant holds only what the
    body never touches; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => accAt V c t.val t.isLt
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = accAt V c t.val t.isLt := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d

/-- At a later point the output's staging buffer holds what the body left at the point before: the block is
    not written back in between (only after the last point), the window is never idle and never clipped. -/
theorem dat1_before4 (c : Dev nD) (t : Fin cfg1.N) (h0 : t.val ≠ 0) (d) :
    (dat1 V c).before 4 t d = accAt V c (t.val - 1) (Nat.lt_of_le_of_lt (Nat.sub_le _ _) t.isLt) := by
  have hN : t.val < 32 := lt_of_lt_of_eq t.isLt (show cfg1.N = 32 from N_1)
  rw [Dat.before_out_kept _ 4 rfl t h0 (Bool.eq_false_iff.mpr fun h => by have := (flush1_4 _).mp h; dsimp only at this; omega)
    acc_live (fun _ _ => rfl)]
  dsimp only [dat1]

/-- What the body is handed at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any grid point: the inputs' buffers hold their blocks; at the first point the first triple
    applies (the output buffer at anything), at a later one the second (the output buffer at the running sum). -/
theorem ffn_at (c : Dev nD) (t : Fin cfg1.N) :
    handed1 V c t ⊢ wp frame (wpE (defs₀ (F := F)) Variants.none c none) Set.univ (bodyAt1 t) (fun _ => left1 V c t) := by
  unfold handed1 left1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  by_cases h0 : t.val = 0
  · rw [accAt_first V c t h0]
    iintro ⟨HΦ, Ho, ⟨%d0, H0⟩, ⟨%d1, H1⟩, ⟨%d2, H2⟩, ⟨%d3, H3⟩, ⟨%d4, H4⟩⟩
    iapply (ffn_first_triple c Set.univ (grid1.coords t) ((first_iff t).mpr h0) (fun h => (later_iff t).mp h h0)
      _ _ _ _ _ _ _ _ _ _ (blk1 V c 0 t) (blk1 V c 1 t) (blk1 V c 2 t) (blk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later V c t h0]
    simp only [dat1_before4 V c t h0]
    iintro ⟨HΦ, Ho, ⟨%d0, H0⟩, ⟨%d1, H1⟩, ⟨%d2, H2⟩, ⟨%d3, H3⟩, ⟨%d4, H4⟩⟩
    iapply (ffn_later_triple c Set.univ (grid1.coords t) (fun h => h0 ((first_iff t).mp h)) ((later_iff t).mpr h0)
      _ _ _ _ _ _ _ _ _ _ (blk1 V c 0 t) (blk1 V c 1 t) (blk1 V c 2 t) (blk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The pipeline's body obligation, at every point. -/
theorem ffn_obligation (c : Dev nD) : BodyObligation (dat1 (F := F) V c) (defs₀ (F := F)) Variants.none () Set.univ := fun t => by
  rw [bigSep_W1, bigSep_W1]
  rw [acc_live (cfg1.grid.coords t)]
  exact ffn_at V c t

end Cert.Kernel.Hand

end
-- ==== Proof.Bits.Residual.lean ====
/-
  The third launch: out = x + acc · gamma, one 256-row tile of tokens per grid point.
  At a grid point the body reads three blocks — the 256 rows of x, the same 256 rows of the
  accumulated feed-forward result, and the single row gamma — and overwrites its whole output
  block with their combination.  Stated here for any contents `V` of the buffers at the launch's
  entry: what each block is, what the output block holds after the body, and the body's triple
  at every grid point.
-/
import proofs.«175990_g24111946400455_cont_8to1_1544_11_alg».proof.Proof.Gen.Kernel.Launch
import proofs.«175990_g24111946400455_cont_8to1_1544_11_alg».proof.Proof.Gen.Kernel.Skeleton
import proofs.«175990_g24111946400455_cont_8to1_1544_11_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window that the body only reads holds its block at every point, whether it was fetched
    there or kept from the point before (the block index did not move). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole 256 × 2048 tile and the whole single row, as rectangles. -/
abbrev tile2 : Rect S256x2048 := Rect.unit (s := S256x2048) ![0, 0] S256x2048.size inb_S256x2048_S256x2048_0_0
abbrev row2 : Rect S1x2048 := Rect.unit (s := S1x2048) ![0, 0] S1x2048.size inb_S1x2048_S1x2048_0_0

/-- The output tile after the body: one store of the whole tile, x + acc · gamma of the three blocks. -/
def resid2 (x : Vec F S256x2048 .f32) (a : Vec F S256x2048 .bf16) (g : Vec F S1x2048 .f32) : Vec F S256x2048 .f32 :=
  View.canon [⟨tile2, k2_pay1 (View.ld x tile2) (View.ld a tile2) (View.ld g row2)⟩]

theorem resid2_cover (p : Vec F S256x2048 .f32) (y : S256x2048.Idx) :
    ∃ pc ∈ ([⟨tile2, p⟩] : List (View.Piece (Elt F) S256x2048 .f32)), y ∈ pc.1.set :=
  View.cover_of_tiled [⟨tile2, p⟩] S256x2048.size (by rfl) y

set_option maxHeartbeats 1000000 in
/-- The body on whole staging buffers: the three inputs at given contents, the output at anything; it
    ends with the inputs untouched and the output at `resid2` of them. -/
theorem residual_triple (c : Dev nD) (E : Set ℕ) (i : grid2.Coords)
    (arg1 : Memref sig .tc .vmem S256x2048 .f32) (harg1 : arg1.IsWhole) (arg2 : Memref sig .tc .vmem S256x2048 .bf16) (harg2 : arg2.IsWhole)
    (arg3 : Memref sig .tc .vmem S1x2048 .f32) (harg3 : arg3.IsWhole) (arg4 : Memref sig .tc .vmem S256x2048 .f32) (harg4 : arg4.IsWhole)
    (x : Vec F S256x2048 .f32) (a : Vec F S256x2048 .bf16) (g : Vec F S1x2048 .f32) (K : PUnit → sProp 𝕄) :
    iprop(owns (c : Thread nD τ) arg1 fullShare x ∗ owns (c : Thread nD τ) arg2 fullShare a ∗ owns (c : Thread nD τ) arg3 fullShare g
        ∗ (∃ d, owns (c : Thread nD τ) arg4 fullShare d)
        ∗ (iprop(owns (c : Thread nD τ) arg1 fullShare x ∗ owns (c : Thread nD τ) arg2 fullShare a ∗ owns (c : Thread nD τ) arg3 fullShare g
            ∗ owns (c : Thread nD τ) arg4 fullShare (resid2 x a g)) -∗ K ⟨⟩))
      ⊢ wp frame (wpE (defs₀ (F := F)) Variants.none c none) E (cc2__residual_kernel i arg1 harg1 arg2 harg2 arg3 harg3 arg4 harg4) K := by
  simp only [cc2__residual_kernel_eq_skeleton]; unfold cc2__residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (resid2_cover _)

/-- The launch's proof data on core `c`: the arrays as found; after the body at point `t` each input's
    buffer still at its block and the output's at `resid2` of the three blocks; the invariant holds only what
    the body never touches; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => resid2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = resid2 (blk2 V c 0 t) (blk2 V c 1 t) (blk2 V c 2 t) := by dsimp only [dat2]

theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d

/-- What the body is handed at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so the triple applies; the invariant
    and what the core owes pass through unread. -/
theorem residual_at (c : Dev nD) (t : Fin cfg2.N) :
    handed2 V c t ⊢ wp frame (wpE (defs₀ (F := F)) Variants.none c none) Set.univ (bodyAt2 t) (fun _ => left2 V c t) := by
  unfold handed2 left2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (residual_triple c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem residual_obligation (c : Dev nD) : BodyObligation (dat2 (F := F) V c) (defs₀ (F := F)) Variants.none () Set.univ := fun t => by
  rw [bigSep_W2, bigSep_W2]
  exact residual_at V c t

end Cert.Kernel.Hand

end
-- ==== Proof.Bits.Run.lean ====
/-
  The whole program as four segments — the two reshapes of norm_w and gamma into single rows, then the
  three launches — and what every unscoped buffer holds at each boundary between them:
  at launch, the memory; after the reshapes, those two rows written; after each launch, that launch's
  output array at what its write-backs leave and everything else untouched.  From the three launches'
  body obligations the run follows: every weakly fair execution terminates without fault, and the final
  memory holds every unscoped buffer at the last boundary's contents.  The frame (the seven argument arrays
  end as launched) is read off that, since no segment writes an argument.
-/
import proofs.«175990_g24111946400455_cont_8to1_1544_11_alg».proof.Proof.Bits.NormRouter
import proofs.«175990_g24111946400455_cont_8to1_1544_11_alg».proof.Proof.Bits.Ffn
import proofs.«175990_g24111946400455_cont_8to1_1544_11_alg».proof.Proof.Bits.Residual
import proofs.«175990_g24111946400455_cont_8to1_1544_11_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch. -/
abbrev atStart : Dev nD → Valuation τ sig (Elt F) := fun c b => (s₀ m ρ).mem ((c : Dev nD), b)
/-- After the two reshapes (the first launch's entry). -/
abbrev atA : Dev nD → Valuation τ sig (Elt F) := fun c => StableHlo.after hostOps0 (atStart m ρ c)
abbrev inA : (c : Dev nD) → (b : Ref sig .tc) → Buf (Elt F) ((c : Thread nD τ).loc b) := fun c b => atA m ρ c b

/-- After launch 0: its arrays at what the pipeline's write-backs leave, every other buffer as before. -/
def atB (c : Dev nD) : Valuation τ sig (Elt F) :=
  Pipeline.withArrays spec0 c (atA m ρ c) fun w => (dat0 (inA m ρ) c).arrAt w cfg0.N
theorem atB_arr (c : Dev nD) (w : Fin cfg0.W) :
    atB m ρ c (Proc.devRef .tc (Pipeline.arrRef spec0 w)) = (dat0 (inA m ρ) c).arrAt w cfg0.N := by
  unfold atB; exact Pipeline.withArrays_arr spec0 launch0.win.arr_inj c _ _ w
theorem atB_of_ne (c : Dev nD) (b : Ref sig .tc) (hb : ∀ w, Pipeline.arrRef spec0 w ≠ b) :
    atB m ρ c (Proc.devRef .tc b) = atA m ρ c (Proc.devRef .tc b) := by
  unfold atB; exact Pipeline.withArrays_of_ne spec0 c _ _ b hb
/-- The same, read at the TensorCore's references. -/
abbrev inB : (c : Dev nD) → (b : Ref sig .tc) → Buf (Elt F) ((c : Thread nD τ).loc b) := fun c b => atB m ρ c b
theorem left_arr0 (c : Dev nD) (w : Fin cfg0.W) : (dat0 (inA m ρ) c).arrAt w cfg0.N = inB m ρ c (Pipeline.arrRef spec0 w) :=
  (atB_arr m ρ c w).symm
theorem left_rest0 (c : Dev nD) : ∀ b, b ∉ Finset.univ.image (Pipeline.arrRef spec0) → inB m ρ c b = inA m ρ c b :=
  fun b hb => atB_of_ne m ρ c b fun w e => hb (Finset.mem_image.mpr ⟨w, Finset.mem_univ _, e⟩)
/-- Launch 0 changes one buffer only, its output array `main_call0_v2`: an input window's array ends as it was
    found (its blocks are only read), and a buffer that is no window's array is not touched. -/
theorem atB_kept (c : Dev nD) (b : Ref sig .tc) (hb : b ≠ main_call0_v2) :
    atB m ρ c (Proc.devRef .tc b) = atA m ρ c (Proc.devRef .tc b) := by
  by_cases h : ∃ w, Pipeline.arrRef spec0 w = b
  · obtain ⟨w, rfl⟩ := h
    match w, hb with
    | ⟨0, _⟩, _ => exact (atB_arr m ρ c 0).trans (((dat0 (inA m ρ) c).arrAt_in 0 rfl _).trans (dat0_A (inA m ρ) c 0))
    | ⟨1, _⟩, _ => exact (atB_arr m ρ c 1).trans (((dat0 (inA m ρ) c).arrAt_in 1 rfl _).trans (dat0_A (inA m ρ) c 1))
    | ⟨2, _⟩, _ => exact (atB_arr m ρ c 2).trans (((dat0 (inA m ρ) c).arrAt_in 2 rfl _).trans (dat0_A (inA m ρ) c 2))
    | ⟨3, _⟩, hb => exact absurd rfl hb
  · exact atB_of_ne m ρ c b fun w e => h ⟨w, e⟩

/-- After launch 1: its arrays at what the pipeline's write-backs leave, every other buffer as before. -/
def atC (c : Dev nD) : Valuation τ sig (Elt F) :=
  Pipeline.withArrays spec1 c (atB m ρ c) fun w => (dat1 (inB m ρ) c).arrAt w cfg1.N
theorem atC_arr (c : Dev nD) (w : Fin cfg1.W) :
    atC m ρ c (Proc.devRef .tc (Pipeline.arrRef spec1 w)) = (dat1 (inB m ρ) c).arrAt w cfg1.N := by
  unfold atC; exact Pipeline.withArrays_arr spec1 launch1.win.arr_inj c _ _ w
theorem atC_of_ne (c : Dev nD) (b : Ref sig .tc) (hb : ∀ w, Pipeline.arrRef spec1 w ≠ b) :
    atC m ρ c (Proc.devRef .tc b) = atB m ρ c (Proc.devRef .tc b) := by
  unfold atC; exact Pipeline.withArrays_of_ne spec1 c _ _ b hb
/-- The same, read at the TensorCore's references. -/
abbrev inC : (c : Dev nD) → (b : Ref sig .tc) → Buf (Elt F) ((c : Thread nD τ).loc b) := fun c b => atC m ρ c b
theorem left_arr1 (c : Dev nD) (w : Fin cfg1.W) : (dat1 (inB m ρ) c).arrAt w cfg1.N = inC m ρ c (Pipeline.arrRef spec1 w) :=
  (atC_arr m ρ c w).symm
theorem left_rest1 (c : Dev nD) : ∀ b, b ∉ Finset.univ.image (Pipeline.arrRef spec1) → inC m ρ c b = inB m ρ c b :=
  fun b hb => atC_of_ne m ρ c b fun w e => hb (Finset.mem_image.mpr ⟨w, Finset.mem_univ _, e⟩)
/-- Launch 1 changes one buffer only, its output array `main_call0_v3`: an input window's array ends as it was
    found (its blocks are only read), and a buffer that is no window's array is not touched. -/
theorem atC_kept (c : Dev nD) (b : Ref sig .tc) (hb : b ≠ main_call0_v3) :
    atC m ρ c (Proc.devRef .tc b) = atB m ρ c (Proc.devRef .tc b) := by
  by_cases h : ∃ w, Pipeline.arrRef spec1 w = b
  · obtain ⟨w, rfl⟩ := h
    match w, hb with
    | ⟨0, _⟩, _ => exact (atC_arr m ρ c 0).trans (((dat1 (inB m ρ) c).arrAt_in 0 rfl _).trans (dat1_A (inB m ρ) c 0))
    | ⟨1, _⟩, _ => exact (atC_arr m ρ c 1).trans (((dat1 (inB m ρ) c).arrAt_in 1 rfl _).trans (dat1_A (inB m ρ) c 1))
    | ⟨2, _⟩, _ => exact (atC_arr m ρ c 2).trans (((dat1 (inB m ρ) c).arrAt_in 2 rfl _).trans (dat1_A (inB m ρ) c 2))
    | ⟨3, _⟩, _ => exact (atC_arr m ρ c 3).trans (((dat1 (inB m ρ) c).arrAt_in 3 rfl _).trans (dat1_A (inB m ρ) c 3))
    | ⟨4, _⟩, hb => exact absurd rfl hb
  · exact atC_of_ne m ρ c b fun w e => h ⟨w, e⟩

/-- After launch 2: its arrays at what the pipeline's write-backs leave, every other buffer as before. -/
def atD (c : Dev nD) : Valuation τ sig (Elt F) :=
  Pipeline.withArrays spec2 c (atC m ρ c) fun w => (dat2 (inC m ρ) c).arrAt w cfg2.N
theorem atD_arr (c : Dev nD) (w : Fin cfg2.W) :
    atD m ρ c (Proc.devRef .tc (Pipeline.arrRef spec2 w)) = (dat2 (inC m ρ) c).arrAt w cfg2.N := by
  unfold atD; exact Pipeline.withArrays_arr spec2 launch2.win.arr_inj c _ _ w
theorem atD_of_ne (c : Dev nD) (b : Ref sig .tc) (hb : ∀ w, Pipeline.arrRef spec2 w ≠ b) :
    atD m ρ c (Proc.devRef .tc b) = atC m ρ c (Proc.devRef .tc b) := by
  unfold atD; exact Pipeline.withArrays_of_ne spec2 c _ _ b hb
/-- The same, read at the TensorCore's references. -/
abbrev inD : (c : Dev nD) → (b : Ref sig .tc) → Buf (Elt F) ((c : Thread nD τ).loc b) := fun c b => atD m ρ c b
theorem left_arr2 (c : Dev nD) (w : Fin cfg2.W) : (dat2 (inC m ρ) c).arrAt w cfg2.N = inD m ρ c (Pipeline.arrRef spec2 w) :=
  (atD_arr m ρ c w).symm
theorem left_rest2 (c : Dev nD) : ∀ b, b ∉ Finset.univ.image (Pipeline.arrRef spec2) → inD m ρ c b = inC m ρ c b :=
  fun b hb => atD_of_ne m ρ c b fun w e => hb (Finset.mem_image.mpr ⟨w, Finset.mem_univ _, e⟩)
/-- Launch 2 changes one buffer only, its output array `main_v0`: an input window's array ends as it was
    found (its blocks are only read), and a buffer that is no window's array is not touched. -/
theorem atD_kept (c : Dev nD) (b : Ref sig .tc) (hb : b ≠ main_v0) :
    atD m ρ c (Proc.devRef .tc b) = atC m ρ c (Proc.devRef .tc b) := by
  by_cases h : ∃ w, Pipeline.arrRef spec2 w = b
  · obtain ⟨w, rfl⟩ := h
    match w, hb with
    | ⟨0, _⟩, _ => exact (atD_arr m ρ c 0).trans (((dat2 (inC m ρ) c).arrAt_in 0 rfl _).trans (dat2_A (inC m ρ) c 0))
    | ⟨1, _⟩, _ => exact (atD_arr m ρ c 1).trans (((dat2 (inC m ρ) c).arrAt_in 1 rfl _).trans (dat2_A (inC m ρ) c 1))
    | ⟨2, _⟩, _ => exact (atD_arr m ρ c 2).trans (((dat2 (inC m ρ) c).arrAt_in 2 rfl _).trans (dat2_A (inC m ρ) c 2))
    | ⟨3, _⟩, hb => exact absurd rfl hb
  · exact atD_of_ne m ρ c b fun w e => h ⟨w, e⟩

/-- The reshapes write their two result rows only. -/
theorem atA_kept (c : Dev nD) (b : Ref sig .tc) (hb : b ∉ hostOps0_W) :
    atA m ρ c (Proc.devRef .tc b) = m ((c : Thread nD τ).loc b) :=
  (StableHlo.after_of_writes_sub hostOps0 _ hostOps0_writes hb).trans rfl

/-- A buffer that no segment writes — every argument array — ends as launched. -/
theorem atD_untouched (c : Dev nD) (b : Ref sig .tc) (h3 : b ≠ main_v0) (h2 : b ≠ main_call0_v3) (h1 : b ≠ main_call0_v2)
    (h0 : b ∉ hostOps0_W) : atD m ρ c (Proc.devRef .tc b) = m ((c : Thread nD τ).loc b) :=
  (atD_kept m ρ c b h3).trans <| (atC_kept m ρ c b h2).trans <| (atB_kept m ρ c b h1).trans (atA_kept m ρ c b h0)

/-! ## The proof data of the three launches, each at its entry contents -/

def pdats : (p : Fin 3) → (c : Dev nD) → Dat τ (Elt F) Unit ℕ (UR sig nD τ) ℕ (Pipeline.pin (pcfgs (F := F)) adm p) c
  | ⟨0, _⟩ => fun c => dat0 (inA m ρ) c
  | ⟨1, _⟩ => fun c => dat1 (inB m ρ) c
  | ⟨2, _⟩ => fun c => dat2 (inC m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state
    and the fact that it owes nothing. -/
abbrev R (c : Dev nD) : sProp 𝕄 := iprop((∃ r, prngReg c r) ∗ ∃ W, owes (c : Thread nD τ) (0 : CellTallies nD τ sig Unit) W)
/-- The reshapes as a segment. -/
abbrev reshapes : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atStart m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debt: every unscoped buffer at the last boundary's contents. -/
abbrev Tₙ (c : Dev nD) : sProp 𝕄 := iprop(StableHlo.held (c : Thread nD τ) (Pipeline.ucRefs τ sig) (atD m ρ c) ∗ ∃ r, prngReg c r)

/-! ## The launches as segments -/

set_option backward.isDefEq.respectTransparency.types false in
/-- Launch 0 as a segment of the program: entered with every unscoped buffer at the contents before it, left
    with the launch's arrays at what its write-backs leave and every other buffer untouched.  The launch's arrays
    are split out of the unscoped buffers at entry and put back at exit; the random-number register rides
    through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (norm_router_obligation (inA m ρ) c).loose
  hwaits := Pipeline.hwaits_of_owed_zero _ _ _ _ L lv 0 fun _ _ => rfl
  pre c := iprop(StableHlo.held (c : Thread nD τ) (Pipeline.ucRefs τ sig) (atA m ρ c) ∗ R c)
  post c := iprop(StableHlo.held (c : Thread nD τ) (Pipeline.ucRefs τ sig) (atB m ρ c) ∗ R c)
  X c := iprop(∃ r, prngReg c r)
  Y c := iprop(∃ r, prngReg c r)
  Z c := Pipeline.unscopedRest (Ix := Unit) (Name := ℕ) (U := UR sig nD τ) (Lvl := ℕ) spec0 c (inA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (inA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (inA m ρ c) (inB m ρ c) ((pdats m ρ 0 c).arrAt · cfg0.N) (left_arr0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the program: entered with every unscoped buffer at the contents before it, left
    with the launch's arrays at what its write-backs leave and every other buffer untouched.  The launch's arrays
    are split out of the unscoped buffers at entry and put back at exit; the random-number register rides
    through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (ffn_obligation (inB m ρ) c).loose
  hwaits := Pipeline.hwaits_of_owed_zero _ _ _ _ L lv 1 fun _ _ => rfl
  pre c := iprop(StableHlo.held (c : Thread nD τ) (Pipeline.ucRefs τ sig) (atB m ρ c) ∗ R c)
  post c := iprop(StableHlo.held (c : Thread nD τ) (Pipeline.ucRefs τ sig) (atC m ρ c) ∗ R c)
  X c := iprop(∃ r, prngReg c r)
  Y c := iprop(∃ r, prngReg c r)
  Z c := Pipeline.unscopedRest (Ix := Unit) (Name := ℕ) (U := UR sig nD τ) (Lvl := ℕ) spec1 c (inB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (inB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (inB m ρ c) (inC m ρ c) ((pdats m ρ 1 c).arrAt · cfg1.N) (left_arr1 m ρ c) (left_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment of the program: entered with every unscoped buffer at the contents before it, left
    with the launch's arrays at what its write-backs leave and every other buffer untouched.  The launch's arrays
    are split out of the unscoped buffers at entry and put back at exit; the random-number register rides
    through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (residual_obligation (inC m ρ) c).loose
  hwaits := Pipeline.hwaits_of_owed_zero _ _ _ _ L lv 2 fun _ _ => rfl
  pre c := iprop(StableHlo.held (c : Thread nD τ) (Pipeline.ucRefs τ sig) (atC m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (inC m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (inC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (inC m ρ c) (inD m ρ c) ((pdats m ρ 2 c).arrAt · cfg2.N) (left_arr2 m ρ c) (left_rest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (reshapes m ρ), .region (reg0 m ρ), .region (reg1 m ρ), .region (reg2 m ρ) ]
theorem main_is_segs (c : Dev nD) : main (F := F) c = Pipeline.Seg.run (segs m ρ) := (main_chain c).trans (by chain_rfl)

set_option backward.isDefEq.respectTransparency.types false in
/-- THE RUN: from any memory with zero counters, every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atD m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atStart m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atStart m ρ c)
        from Pipeline.unscopedBufs_held c (atStart m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atD m ρ c b)
    (hfin := fun c s' => by
      iintro ⟨⟨Hh, -⟩, HSI⟩
      unfold StableHlo.held
      imodintro
      iapply (pointsTo_read_all (Pipeline.ucRefs τ sig) (fun b => (((c : Thread nD τ)).1, b)) (atD m ρ c) s')
      isplitl [Hh] <;> iassumption)
    (hQ := fun s h => h)

/-- THE FRAME: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (atD_untouched m ρ c main_arg0 (by decide) (by decide) (by decide) (by decide)),
     (h c _ (mem_uc main_arg1 (by decide))).trans (atD_untouched m ρ c main_arg1 (by decide) (by decide) (by decide) (by decide)),
     (h c _ (mem_uc main_arg2 (by decide))).trans (atD_untouched m ρ c main_arg2 (by decide) (by decide) (by decide) (by decide)),
     (h c _ (mem_uc main_arg3 (by decide))).trans (atD_untouched m ρ c main_arg3 (by decide) (by decide) (by decide) (by decide)),
     (h c _ (mem_uc main_arg4 (by decide))).trans (atD_untouched m ρ c main_arg4 (by decide) (by decide) (by decide) (by decide)),
     (h c _ (mem_uc main_arg5 (by decide))).trans (atD_untouched m ρ c main_arg5 (by decide) (by decide) (by decide) (by decide)),
     (h c _ (mem_uc main_arg6 (by decide))).trans (atD_untouched m ρ c main_arg6 (by decide) (by decide) (by decide) (by decide))⟩)
    (run_all m ρ)

end Cert.Kernel.Hand

end
-- ==== Proof.Ideal.NormRouter.lean ====
/-
  The first launch: the gated, normalised activations, one 256-row tile of tokens per grid point.
  At a grid point the body reads the 256 rows of x and the two single rows (the norm weight and the
  router weight) and overwrites its whole output tile: each row of x scaled by the reciprocal root of its
  mean square (plus epsilon) and by the norm weight, then multiplied by the row's gate — 1 when the sigmoid
  of the row's router logit exceeds the threshold, else 0.  Stated for any contents `V` of the buffers
  at the launch's entry: the blocks, what the output tile holds after the body, the body's triple at
  every grid point.
-/
import proofs.«175990_g24111946400455_cont_8to1_1544_11_alg».proof.Proof.Gen.KernelIdeal.Launch
import proofs.«175990_g24111946400455_cont_8to1_1544_11_alg».proof.Proof.Gen.KernelIdeal.Skeleton
import proofs.«175990_g24111946400455_cont_8to1_1544_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window that the body only reads holds its block at every point, whether it was fetched
    there or kept from the point before (the block index did not move). -/
theorem found0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)
theorem found0_2 {c : Dev nD} (dat : Dat τ (Elt F) Unit ℕ (UR sig nD τ) ℕ cfg0 c) (hA : dat.A 2 = V c (Pipeline.arrRef spec0 2))
    (hafter : ∀ t, dat.after 2 t = blk0 V c 2 t) (t : Fin cfg0.N) (d) : dat.before 2 t d = blk0 V c 2 t :=
  (dat.before_in_eq_fetched 2 rfl (fun _ => rfl) (fun _ _ _ => rfl) (fun t => by rw [hafter]; unfold Dat.blockOf blk0; rw [hA]; try rfl) t d).trans
    (by unfold Dat.fetched Dat.blockOf blk0; rw [hA]; try rfl)

/-- The whole 256 × 2048 tile and the whole single row, as rectangles. -/
abbrev tile0 : Rect S256x2048 := Rect.unit (s := S256x2048) ![0, 0] S256x2048.size inb_S256x2048_S256x2048_0_0
abbrev row0 : Rect S1x2048 := Rect.unit (s := S1x2048) ![0, 0] S1x2048.size inb_S1x2048_S1x2048_0_0

/-- The output tile after the body: one store of the whole tile, the gated normalised rows of the three blocks. -/
def gated0 (x : Vec F S256x2048 .f32) (nw : Vec F S1x2048 .f32) (rw : Vec F S1x2048 .f32) : Vec F S256x2048 .bf16 :=
  View.canon [⟨tile0, k0_pay1 (View.ld x tile0) (View.ld nw row0) (View.ld rw row0)⟩]

theorem gated0_cover (p : Vec F S256x2048 .bf16) (y : S256x2048.Idx) :
    ∃ pc ∈ ([⟨tile0, p⟩] : List (View.Piece (Elt F) S256x2048 .bf16)), y ∈ pc.1.set :=
  View.cover_of_tiled [⟨tile0, p⟩] S256x2048.size (by rfl) y

set_option maxHeartbeats 1000000 in
/-- The body on whole staging buffers: the three inputs at given contents, the output at anything; it
    ends with the inputs untouched and the output at `gated0` of them. -/
theorem norm_router_triple (c : Dev nD) (E : Set ℕ) (i : grid0.Coords)
    (arg1 : Memref sig .tc .vmem S256x2048 .f32) (harg1 : arg1.IsWhole) (arg2 : Memref sig .tc .vmem S1x2048 .f32) (harg2 : arg2.IsWhole)
    (arg3 : Memref sig .tc .vmem S1x2048 .f32) (harg3 : arg3.IsWhole) (arg4 : Memref sig .tc .vmem S256x2048 .bf16) (harg4 : arg4.IsWhole)
    (x : Vec F S256x2048 .f32) (nw : Vec F S1x2048 .f32) (rw : Vec F S1x2048 .f32) (K : PUnit → sProp 𝕄) :
    iprop(owns (c : Thread nD τ) arg1 fullShare x ∗ owns (c : Thread nD τ) arg2 fullShare nw ∗ owns (c : Thread nD τ) arg3 fullShare rw
        ∗ (∃ d, owns (c : Thread nD τ) arg4 fullShare d)
        ∗ (iprop(owns (c : Thread nD τ) arg1 fullShare x ∗ owns (c : Thread nD τ) arg2 fullShare nw ∗ owns (c : Thread nD τ) arg3 fullShare rw
            ∗ owns (c : Thread nD τ) arg4 fullShare (gated0 x nw rw)) -∗ K ⟨⟩))
      ⊢ wp frame (wpE (defs₀ (F := F)) Variants.none c none) E (cc0__norm_router_kernel i arg1 harg1 arg2 harg2 arg3 harg3 arg4 harg4) K := by
  simp only [cc0__norm_router_kernel_eq_skeleton]; unfold cc0__norm_router_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (gated0_cover _)

/-- The launch's proof data on core `c`: the arrays as found; after the body at point `t` each input's
    buffer still at its block and the output's at `gated0` of the three blocks; the invariant holds only what
    the body never touches; nothing owed. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => gated0 (blk0 V c 0 t) (blk0 V c 1 t) (blk0 V c 2 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = blk0 V c 2 t := by dsimp only [dat0]
theorem dat0_after3 (c : Dev nD) (t : Fin cfg0.N) :
    (dat0 V c).after 3 t = gated0 (blk0 V c 0 t) (blk0 V c 1 t) (blk0 V c 2 t) := by dsimp only [dat0]

theorem dat0_before0 (c : Dev nD) (t : Fin cfg0.N) (d) : (dat0 V c).before 0 t d = blk0 V c 0 t :=
  found0_0 V (dat0 V c) (dat0_A V c 0) (dat0_after0 V c) t d
theorem dat0_before1 (c : Dev nD) (t : Fin cfg0.N) (d) : (dat0 V c).before 1 t d = blk0 V c 1 t :=
  found0_1 V (dat0 V c) (dat0_A V c 1) (dat0_after1 V c) t d
theorem dat0_before2 (c : Dev nD) (t : Fin cfg0.N) (d) : (dat0 V c).before 2 t d = blk0 V c 2 t :=
  found0_2 V (dat0 V c) (dat0_A V c 2) (dat0_after2 V c) t d

/-- What the body is handed at point `t`, window by window, -/
def handed0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it hands back. -/
def left0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any grid point: the inputs' buffers hold their blocks, so the triple applies; the invariant
    and what the core owes pass through unread. -/
theorem norm_router_at (c : Dev nD) (t : Fin cfg0.N) :
    handed0 V c t ⊢ wp frame (wpE (defs₀ (F := F)) Variants.none c none) Set.univ (bodyAt0 t) (fun _ => left0 V c t) := by
  unfold handed0 left0 bodyAt0
  simp only [dat0_before0, dat0_before1, dat0_before2]
  rw [show (dat0 V c).Φ t.succ = (dat0 V c).Φ t.castSucc from rfl,
    show (dat0 V c).owesAt () t.succ = (dat0 V c).owesAt () t.castSucc from rfl,
    dat0_after0, dat0_after1, dat0_after2, dat0_after3]
  iintro ⟨HΦ, Ho, ⟨%d0, H0⟩, ⟨%d1, H1⟩, ⟨%d2, H2⟩, ⟨%d3, H3⟩⟩
  iapply (norm_router_triple c Set.univ _ _ _ _ _ _ _ _ _ (blk0 V c 0 t) (blk0 V c 1 t) (blk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem norm_router_obligation (c : Dev nD) : BodyObligation (dat0 (F := F) V c) (defs₀ (F := F)) Variants.none () Set.univ := fun t => by
  rw [bigSep_W0, bigSep_W0]
  exact norm_router_at V c t

end Cert.KernelIdeal.Hand

end
-- ==== Proof.Ideal.Ffn.lean ====
/-
  The second launch: the feed-forward result, accumulated over 32 blocks of 256 hidden units.
  At grid point j the body reads the whole gated activation array xn, rows 256j … 256j+255 of w1 and of
  w3, and columns 256j … 256j+255 of w2; it forms u = xn · w1ᵀ and v = xn · w3ᵀ over those hidden units,
  h = u · sigmoid(u) · v, and the partial product t_j = h · w2ᵀ.  At j = 0 it overwrites the whole
  output block with t_0; at every later point it overwrites it with (what the block held) + t_j.  The
  output block is the same at every point and is written back to its array only after the last one, so
  after point j it holds t_0 + … + t_j.  Stated for any contents `V` of the buffers at the launch's entry.
-/
import proofs.«175990_g24111946400455_cont_8to1_1544_11_alg».proof.Proof.Gen.KernelIdeal.Launch
import proofs.«175990_g24111946400455_cont_8to1_1544_11_alg».proof.Proof.Gen.KernelIdeal.Skeleton
import proofs.«175990_g24111946400455_cont_8to1_1544_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window that the body only reads holds its block at every point, whether it was fetched
    there or kept from the point before (the block index did not move). -/
theorem found1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)
theorem found1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)
theorem found1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The whole activation array, a block of weight rows and a block of weight columns, as rectangles. -/
abbrev whole1 : Rect S2048x2048 := Rect.unit (s := S2048x2048) ![0, 0] S2048x2048.size inb_S2048x2048_S2048x2048_0_0
abbrev rows1 : Rect S256x2048 := Rect.unit (s := S256x2048) ![0, 0] S256x2048.size inb_S256x2048_S256x2048_0_0
abbrev cols1 : Rect S2048x256 := Rect.unit (s := S2048x256) ![0, 0] S2048x256.size inb_S2048x256_S2048x256_0_0

/-- The output block after the FIRST point's body: one store of the whole block, the partial product. -/
def first1 (xn : Vec F S2048x2048 .bf16) (w1 : Vec F S256x2048 .f32) (w2 : Vec F S2048x256 .f32) (w3 : Vec F S256x2048 .f32) : Vec F S2048x2048 .bf16 :=
  View.canon [⟨whole1, k1_pay1 (View.ld w1 rows1) (View.ld w3 rows1) (View.ld w2 cols1) (View.ld xn whole1)⟩]

/-- The output block after a LATER point's body: one store of the whole block, what it held plus the partial product. -/
def later1 (xn : Vec F S2048x2048 .bf16) (w1 : Vec F S256x2048 .f32) (w2 : Vec F S2048x256 .f32) (w3 : Vec F S256x2048 .f32)
    (acc : Vec F S2048x2048 .bf16) : Vec F S2048x2048 .bf16 :=
  View.canon [⟨whole1, k1_pay2 (View.ld w1 rows1) (View.ld w3 rows1) (View.ld w2 cols1) (View.ld xn whole1) (View.ld acc whole1)⟩]

theorem whole1_cover (p : Vec F S2048x2048 .bf16) (y : S2048x2048.Idx) :
    ∃ pc ∈ ([⟨whole1, p⟩] : List (View.Piece (Elt F) S2048x2048 .bf16)), y ∈ pc.1.set :=
  View.cover_of_tiled [⟨whole1, p⟩] S2048x2048.size (by rfl) y

/-- The first branch is taken at the first grid point only, the second at every other point. -/
theorem first_iff : ∀ t : Fin cfg1.N, k1_cond1 (grid1.coords t) = 1#1 ↔ t.val = 0 :=
  (by decide +kernel : ∀ t : Fin grid1.N, k1_cond1 (grid1.coords t) = 1#1 ↔ t.val = 0)
theorem later_iff : ∀ t : Fin cfg1.N, k1_cond2 (grid1.coords t) = 1#1 ↔ t.val ≠ 0 :=
  (by decide +kernel : ∀ t : Fin grid1.N, k1_cond2 (grid1.coords t) = 1#1 ↔ t.val ≠ 0)

/-- At every coordinate one of the two branches is taken: the output window is never idle. -/
theorem acc_live : ∀ i : grid1.Coords, cfg1.idle 4 i = false := by
  intro i
  have h : ∀ n : Fin 32,
      (!(Scalar.cmpi .ne (Scalar.extui (Scalar.cmpi .eq (BitVec.ofNat 32 n.val) 0#32)) 0#32 == 1#1)
        && !(Scalar.cmpi .ne (Scalar.extui (Scalar.cmpi .sgt (BitVec.ofNat 32 n.val) 0#32)) 0#32 == 1#1)) = false := by
    decide +kernel
  exact h ⟨(i 0).val, (i 0).isLt⟩

set_option maxHeartbeats 1000000 in
/-- The body at the first point, on whole staging buffers: the four inputs at given contents, the output at
    anything; it ends with the inputs untouched and the output at `first1` of them. -/
theorem ffn_first_triple (c : Dev nD) (E : Set ℕ) (i : grid1.Coords) (hc1 : k1_cond1 i = 1#1) (hc2 : ¬ k1_cond2 i = 1#1)
    (arg1 : Memref sig .tc .vmem S2048x2048 .bf16) (harg1 : arg1.IsWhole) (arg2 : Memref sig .tc .vmem S256x2048 .f32) (harg2 : arg2.IsWhole)
    (arg3 : Memref sig .tc .vmem S2048x256 .f32) (harg3 : arg3.IsWhole) (arg4 : Memref sig .tc .vmem S256x2048 .f32) (harg4 : arg4.IsWhole)
    (arg5 : Memref sig .tc .vmem S2048x2048 .bf16) (harg5 : arg5.IsWhole)
    (xn : Vec F S2048x2048 .bf16) (w1 : Vec F S256x2048 .f32) (w2 : Vec F S2048x256 .f32) (w3 : Vec F S256x2048 .f32) (K : PUnit → sProp 𝕄) :
    iprop(owns (c : Thread nD τ) arg1 fullShare xn ∗ owns (c : Thread nD τ) arg2 fullShare w1 ∗ owns (c : Thread nD τ) arg3 fullShare w2
        ∗ owns (c : Thread nD τ) arg4 fullShare w3 ∗ (∃ d, owns (c : Thread nD τ) arg5 fullShare d)
        ∗ (iprop(owns (c : Thread nD τ) arg1 fullShare xn ∗ owns (c : Thread nD τ) arg2 fullShare w1 ∗ owns (c : Thread nD τ) arg3 fullShare w2
            ∗ owns (c : Thread nD τ) arg4 fullShare w3 ∗ owns (c : Thread nD τ) arg5 fullShare (first1 xn w1 w2 w3)) -∗ K ⟨⟩))
      ⊢ wp frame (wpE (defs₀ (F := F)) Variants.none c none) E (cc1__ffn_kernel i arg1 harg1 arg2 harg2 arg3 harg3 arg4 harg4 arg5 harg5) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole1_cover _)

set_option maxHeartbeats 1000000 in
/-- The body at a later point: the output buffer at the running contents `acc`; it ends at `later1` of
    the inputs and `acc`. -/
theorem ffn_later_triple (c : Dev nD) (E : Set ℕ) (i : grid1.Coords) (hc1 : ¬ k1_cond1 i = 1#1) (hc2 : k1_cond2 i = 1#1)
    (arg1 : Memref sig .tc .vmem S2048x2048 .bf16) (harg1 : arg1.IsWhole) (arg2 : Memref sig .tc .vmem S256x2048 .f32) (harg2 : arg2.IsWhole)
    (arg3 : Memref sig .tc .vmem S2048x256 .f32) (harg3 : arg3.IsWhole) (arg4 : Memref sig .tc .vmem S256x2048 .f32) (harg4 : arg4.IsWhole)
    (arg5 : Memref sig .tc .vmem S2048x2048 .bf16) (harg5 : arg5.IsWhole)
    (xn : Vec F S2048x2048 .bf16) (w1 : Vec F S256x2048 .f32) (w2 : Vec F S2048x256 .f32) (w3 : Vec F S256x2048 .f32)
    (acc : Vec F S2048x2048 .bf16) (K : PUnit → sProp 𝕄) :
    iprop(owns (c : Thread nD τ) arg1 fullShare xn ∗ owns (c : Thread nD τ) arg2 fullShare w1 ∗ owns (c : Thread nD τ) arg3 fullShare w2
        ∗ owns (c : Thread nD τ) arg4 fullShare w3 ∗ owns (c : Thread nD τ) arg5 fullShare acc
        ∗ (iprop(owns (c : Thread nD τ) arg1 fullShare xn ∗ owns (c : Thread nD τ) arg2 fullShare w1 ∗ owns (c : Thread nD τ) arg3 fullShare w2
            ∗ owns (c : Thread nD τ) arg4 fullShare w3 ∗ owns (c : Thread nD τ) arg5 fullShare (later1 xn w1 w2 w3 acc)) -∗ K ⟨⟩))
      ⊢ wp frame (wpE (defs₀ (F := F)) Variants.none c none) E (cc1__ffn_kernel i arg1 harg1 arg2 harg2 arg3 harg3 arg4 harg4 arg5 harg5) K := by
  simp only [cc1__ffn_kernel_eq_skeleton]; unfold cc1__ffn_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (whole1_cover _)

/-- THE ACCUMULATION. What the output block holds after the body at point `n`: the first partial product at
    the first point; at every later one, what it held after the point before plus that point's partial product. -/
def accAt (c : Dev nD) : (n : ℕ) → n < cfg1.N → Vec F S2048x2048 .bf16
  | 0, hn => first1 (blk1 V c 0 ⟨0, hn⟩) (blk1 V c 1 ⟨0, hn⟩) (blk1 V c 2 ⟨0, hn⟩) (blk1 V c 3 ⟨0, hn⟩)
  | n + 1, hn => later1 (blk1 V c 0 ⟨n + 1, hn⟩) (blk1 V c 1 ⟨n + 1, hn⟩) (blk1 V c 2 ⟨n + 1, hn⟩) (blk1 V c 3 ⟨n + 1, hn⟩)
      (accAt c n (Nat.lt_of_succ_lt hn))

theorem accAt_first (c : Dev nD) (t : Fin cfg1.N) (h0 : t.val = 0) :
    accAt V c t.val t.isLt = first1 (blk1 V c 0 t) (blk1 V c 1 t) (blk1 V c 2 t) (blk1 V c 3 t) := by
  obtain ⟨n, hn⟩ := t
  cases n with
  | zero => rfl
  | succ n => exact absurd h0 (Nat.succ_ne_zero n)

theorem accAt_later (c : Dev nD) (t : Fin cfg1.N) (h0 : t.val ≠ 0) :
    accAt V c t.val t.isLt = later1 (blk1 V c 0 t) (blk1 V c 1 t) (blk1 V c 2 t) (blk1 V c 3 t)
      (accAt V c (t.val - 1) (Nat.lt_of_le_of_lt (Nat.sub_le _ _) t.isLt)) := by
  obtain ⟨n, hn⟩ := t
  cases n with
  | zero => exact absurd rfl h0
  | succ n => rfl

/-- The launch's proof data on core `c`: the arrays as found; after the body at point `t` each input's
    buffer still at its block and the output's at the running sum `accAt`; the invariant holds only what the
    body never touches; nothing owed. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => accAt V c t.val t.isLt
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = blk1 V c 2 t := by dsimp only [dat1]
theorem dat1_after3 (c : Dev nD) (t : Fin cfg1.N) : (dat1 V c).after 3 t = blk1 V c 3 t := by dsimp only [dat1]
theorem dat1_after4 (c : Dev nD) (t : Fin cfg1.N) : (dat1 V c).after 4 t = accAt V c t.val t.isLt := by dsimp only [dat1]

theorem dat1_before0 (c : Dev nD) (t : Fin cfg1.N) (d) : (dat1 V c).before 0 t d = blk1 V c 0 t :=
  found1_0 V (dat1 V c) (dat1_A V c 0) (dat1_after0 V c) t d
theorem dat1_before1 (c : Dev nD) (t : Fin cfg1.N) (d) : (dat1 V c).before 1 t d = blk1 V c 1 t :=
  found1_1 V (dat1 V c) (dat1_A V c 1) (dat1_after1 V c) t d
theorem dat1_before2 (c : Dev nD) (t : Fin cfg1.N) (d) : (dat1 V c).before 2 t d = blk1 V c 2 t :=
  found1_2 V (dat1 V c) (dat1_A V c 2) (dat1_after2 V c) t d
theorem dat1_before3 (c : Dev nD) (t : Fin cfg1.N) (d) : (dat1 V c).before 3 t d = blk1 V c 3 t :=
  found1_3 V (dat1 V c) (dat1_A V c 3) (dat1_after3 V c) t d

/-- At a later point the output's staging buffer holds what the body left at the point before: the block is
    not written back in between (only after the last point), the window is never idle and never clipped. -/
theorem dat1_before4 (c : Dev nD) (t : Fin cfg1.N) (h0 : t.val ≠ 0) (d) :
    (dat1 V c).before 4 t d = accAt V c (t.val - 1) (Nat.lt_of_le_of_lt (Nat.sub_le _ _) t.isLt) := by
  have hN : t.val < 32 := lt_of_lt_of_eq t.isLt (show cfg1.N = 32 from N_1)
  rw [Dat.before_out_kept _ 4 rfl t h0 (Bool.eq_false_iff.mpr fun h => by have := (flush1_4 _).mp h; dsimp only at this; omega)
    acc_live (fun _ _ => rfl)]
  dsimp only [dat1]

/-- What the body is handed at point `t`, window by window, -/
def handed1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it hands back. -/
def left1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

set_option maxHeartbeats 800000 in
/-- The body at any grid point: the inputs' buffers hold their blocks; at the first point the first triple
    applies (the output buffer at anything), at a later one the second (the output buffer at the running sum). -/
theorem ffn_at (c : Dev nD) (t : Fin cfg1.N) :
    handed1 V c t ⊢ wp frame (wpE (defs₀ (F := F)) Variants.none c none) Set.univ (bodyAt1 t) (fun _ => left1 V c t) := by
  unfold handed1 left1 bodyAt1
  simp only [dat1_before0, dat1_before1, dat1_before2, dat1_before3]
  rw [show (dat1 V c).Φ t.succ = (dat1 V c).Φ t.castSucc from rfl,
    show (dat1 V c).owesAt () t.succ = (dat1 V c).owesAt () t.castSucc from rfl,
    dat1_after0, dat1_after1, dat1_after2, dat1_after3, dat1_after4]
  by_cases h0 : t.val = 0
  · rw [accAt_first V c t h0]
    iintro ⟨HΦ, Ho, ⟨%d0, H0⟩, ⟨%d1, H1⟩, ⟨%d2, H2⟩, ⟨%d3, H3⟩, ⟨%d4, H4⟩⟩
    iapply (ffn_first_triple c Set.univ (grid1.coords t) ((first_iff t).mpr h0) (fun h => (later_iff t).mp h h0)
      _ _ _ _ _ _ _ _ _ _ (blk1 V c 0 t) (blk1 V c 1 t) (blk1 V c 2 t) (blk1 V c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [accAt_later V c t h0]
    simp only [dat1_before4 V c t h0]
    iintro ⟨HΦ, Ho, ⟨%d0, H0⟩, ⟨%d1, H1⟩, ⟨%d2, H2⟩, ⟨%d3, H3⟩, ⟨%d4, H4⟩⟩
    iapply (ffn_later_triple c Set.univ (grid1.coords t) (fun h => h0 ((first_iff t).mp h)) ((later_iff t).mpr h0)
      _ _ _ _ _ _ _ _ _ _ (blk1 V c 0 t) (blk1 V c 1 t) (blk1 V c 2 t) (blk1 V c 3 t) _ _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The pipeline's body obligation, at every point. -/
theorem ffn_obligation (c : Dev nD) : BodyObligation (dat1 (F := F) V c) (defs₀ (F := F)) Variants.none () Set.univ := fun t => by
  rw [bigSep_W1, bigSep_W1]
  rw [acc_live (cfg1.grid.coords t)]
  exact ffn_at V c t

end Cert.KernelIdeal.Hand

end
-- ==== Proof.Ideal.Residual.lean ====
/-
  The third launch: out = x + acc · gamma, one 256-row tile of tokens per grid point.
  At a grid point the body reads three blocks — the 256 rows of x, the same 256 rows of the
  accumulated feed-forward result, and the single row gamma — and overwrites its whole output
  block with their combination.  Stated here for any contents `V` of the buffers at the launch's
  entry: what each block is, what the output block holds after the body, and the body's triple
  at every grid point.
-/
import proofs.«175990_g24111946400455_cont_8to1_1544_11_alg».proof.Proof.Gen.KernelIdeal.Launch
import proofs.«175990_g24111946400455_cont_8to1_1544_11_alg».proof.Proof.Gen.KernelIdeal.Skeleton
import proofs.«175990_g24111946400455_cont_8to1_1544_11_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, cut out of its array as the launch finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window that the body only reads holds its block at every point, whether it was fetched
    there or kept from the point before (the block index did not move). -/
theorem found2_0 {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1 {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2 {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-- The whole 256 × 2048 tile and the whole single row, as rectangles. -/
abbrev tile2 : Rect S256x2048 := Rect.unit (s := S256x2048) ![0, 0] S256x2048.size inb_S256x2048_S256x2048_0_0
abbrev row2 : Rect S1x2048 := Rect.unit (s := S1x2048) ![0, 0] S1x2048.size inb_S1x2048_S1x2048_0_0

/-- The output tile after the body: one store of the whole tile, x + acc · gamma of the three blocks. -/
def resid2 (x : Vec F S256x2048 .f32) (a : Vec F S256x2048 .bf16) (g : Vec F S1x2048 .f32) : Vec F S256x2048 .f32 :=
  View.canon [⟨tile2, k2_pay1 (View.ld x tile2) (View.ld a tile2) (View.ld g row2)⟩]

theorem resid2_cover (p : Vec F S256x2048 .f32) (y : S256x2048.Idx) :
    ∃ pc ∈ ([⟨tile2, p⟩] : List (View.Piece (Elt F) S256x2048 .f32)), y ∈ pc.1.set :=
  View.cover_of_tiled [⟨tile2, p⟩] S256x2048.size (by rfl) y

set_option maxHeartbeats 1000000 in
/-- The body on whole staging buffers: the three inputs at given contents, the output at anything; it
    ends with the inputs untouched and the output at `resid2` of them. -/
theorem residual_triple (c : Dev nD) (E : Set ℕ) (i : grid2.Coords)
    (arg1 : Memref sig .tc .vmem S256x2048 .f32) (harg1 : arg1.IsWhole) (arg2 : Memref sig .tc .vmem S256x2048 .bf16) (harg2 : arg2.IsWhole)
    (arg3 : Memref sig .tc .vmem S1x2048 .f32) (harg3 : arg3.IsWhole) (arg4 : Memref sig .tc .vmem S256x2048 .f32) (harg4 : arg4.IsWhole)
    (x : Vec F S256x2048 .f32) (a : Vec F S256x2048 .bf16) (g : Vec F S1x2048 .f32) (K : PUnit → sProp 𝕄) :
    iprop(owns (c : Thread nD τ) arg1 fullShare x ∗ owns (c : Thread nD τ) arg2 fullShare a ∗ owns (c : Thread nD τ) arg3 fullShare g
        ∗ (∃ d, owns (c : Thread nD τ) arg4 fullShare d)
        ∗ (iprop(owns (c : Thread nD τ) arg1 fullShare x ∗ owns (c : Thread nD τ) arg2 fullShare a ∗ owns (c : Thread nD τ) arg3 fullShare g
            ∗ owns (c : Thread nD τ) arg4 fullShare (resid2 x a g)) -∗ K ⟨⟩))
      ⊢ wp frame (wpE (defs₀ (F := F)) Variants.none c none) E (cc2__residual_kernel i arg1 harg1 arg2 harg2 arg3 harg3 arg4 harg4) K := by
  simp only [cc2__residual_kernel_eq_skeleton]; unfold cc2__residual_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (resid2_cover _)

/-- The launch's proof data on core `c`: the arrays as found; after the body at point `t` each input's
    buffer still at its block and the output's at `resid2` of the three blocks; the invariant holds only what
    the body never touches; nothing owed. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => resid2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]
theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) :
    (dat2 V c).after 3 t = resid2 (blk2 V c 0 t) (blk2 V c 1 t) (blk2 V c 2 t) := by dsimp only [dat2]

theorem dat2_before0 (c : Dev nD) (t : Fin cfg2.N) (d) : (dat2 V c).before 0 t d = blk2 V c 0 t :=
  found2_0 V (dat2 V c) (dat2_A V c 0) (dat2_after0 V c) t d
theorem dat2_before1 (c : Dev nD) (t : Fin cfg2.N) (d) : (dat2 V c).before 1 t d = blk2 V c 1 t :=
  found2_1 V (dat2 V c) (dat2_A V c 1) (dat2_after1 V c) t d
theorem dat2_before2 (c : Dev nD) (t : Fin cfg2.N) (d) : (dat2 V c).before 2 t d = blk2 V c 2 t :=
  found2_2 V (dat2 V c) (dat2_A V c 2) (dat2_after2 V c) t d

/-- What the body is handed at point `t`, window by window, -/
def handed2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it hands back. -/
def left2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so the triple applies; the invariant
    and what the core owes pass through unread. -/
theorem residual_at (c : Dev nD) (t : Fin cfg2.N) :
    handed2 V c t ⊢ wp frame (wpE (defs₀ (F := F)) Variants.none c none) Set.univ (bodyAt2 t) (fun _ => left2 V c t) := by
  unfold handed2 left2 bodyAt2
  simp only [dat2_before0, dat2_before1, dat2_before2]
  rw [show (dat2 V c).Φ t.succ = (dat2 V c).Φ t.castSucc from rfl,
    show (dat2 V c).owesAt () t.succ = (dat2 V c).owesAt () t.castSucc from rfl,
    dat2_after0, dat2_after1, dat2_after2, dat2_after3]
  iintro ⟨HΦ, Ho, ⟨%d0, H0⟩, ⟨%d1, H1⟩, ⟨%d2, H2⟩, ⟨%d3, H3⟩⟩
  iapply (residual_triple c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem residual_obligation (c : Dev nD) : BodyObligation (dat2 (F := F) V c) (defs₀ (F := F)) Variants.none () Set.univ := fun t => by
  rw [bigSep_W2, bigSep_W2]
  exact residual_at V c t

end Cert.KernelIdeal.Hand

end
-- ==== Proof.Ideal.Run.lean ====
/-
  The whole program as four segments — the two reshapes of norm_w and gamma into single rows, then the
  three launches — and what every unscoped buffer holds at each boundary between them:
  at launch, the memory; after the reshapes, those two rows written; after each launch, that launch's
  output array at what its write-backs leave and everything else untouched.  From the three launches'
  body obligations the run follows: every weakly fair execution terminates without fault, and the final
  memory holds every unscoped buffer at the last boundary's contents.  The frame (the seven argument arrays
  end as launched) is read off that, since no segment writes an argument.
-/
import proofs.«175990_g24111946400455_cont_8to1_1544_11_alg».proof.Proof.Ideal.NormRouter
import proofs.«175990_g24111946400455_cont_8to1_1544_11_alg».proof.Proof.Ideal.Ffn
import proofs.«175990_g24111946400455_cont_8to1_1544_11_alg».proof.Proof.Ideal.Residual
import proofs.«175990_g24111946400455_cont_8to1_1544_11_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold at each boundary -/

/-- At launch. -/
abbrev atStart : Dev nD → Valuation τ sig (Elt F) := fun c b => (s₀ m ρ).mem ((c : Dev nD), b)
/-- After the two reshapes (the first launch's entry). -/
abbrev atA : Dev nD → Valuation τ sig (Elt F) := fun c => StableHlo.after hostOps0 (atStart m ρ c)
abbrev inA : (c : Dev nD) → (b : Ref sig .tc) → Buf (Elt F) ((c : Thread nD τ).loc b) := fun c b => atA m ρ c b

/-- After launch 0: its arrays at what the pipeline's write-backs leave, every other buffer as before. -/
def atB (c : Dev nD) : Valuation τ sig (Elt F) :=
  Pipeline.withArrays spec0 c (atA m ρ c) fun w => (dat0 (inA m ρ) c).arrAt w cfg0.N
theorem atB_arr (c : Dev nD) (w : Fin cfg0.W) :
    atB m ρ c (Proc.devRef .tc (Pipeline.arrRef spec0 w)) = (dat0 (inA m ρ) c).arrAt w cfg0.N := by
  unfold atB; exact Pipeline.withArrays_arr spec0 launch0.win.arr_inj c _ _ w
theorem atB_of_ne (c : Dev nD) (b : Ref sig .tc) (hb : ∀ w, Pipeline.arrRef spec0 w ≠ b) :
    atB m ρ c (Proc.devRef .tc b) = atA m ρ c (Proc.devRef .tc b) := by
  unfold atB; exact Pipeline.withArrays_of_ne spec0 c _ _ b hb
/-- The same, read at the TensorCore's references. -/
abbrev inB : (c : Dev nD) → (b : Ref sig .tc) → Buf (Elt F) ((c : Thread nD τ).loc b) := fun c b => atB m ρ c b
theorem left_arr0 (c : Dev nD) (w : Fin cfg0.W) : (dat0 (inA m ρ) c).arrAt w cfg0.N = inB m ρ c (Pipeline.arrRef spec0 w) :=
  (atB_arr m ρ c w).symm
theorem left_rest0 (c : Dev nD) : ∀ b, b ∉ Finset.univ.image (Pipeline.arrRef spec0) → inB m ρ c b = inA m ρ c b :=
  fun b hb => atB_of_ne m ρ c b fun w e => hb (Finset.mem_image.mpr ⟨w, Finset.mem_univ _, e⟩)
/-- Launch 0 changes one buffer only, its output array `main_call0_v2`: an input window's array ends as it was
    found (its blocks are only read), and a buffer that is no window's array is not touched. -/
theorem atB_kept (c : Dev nD) (b : Ref sig .tc) (hb : b ≠ main_call0_v2) :
    atB m ρ c (Proc.devRef .tc b) = atA m ρ c (Proc.devRef .tc b) := by
  by_cases h : ∃ w, Pipeline.arrRef spec0 w = b
  · obtain ⟨w, rfl⟩ := h
    match w, hb with
    | ⟨0, _⟩, _ => exact (atB_arr m ρ c 0).trans (((dat0 (inA m ρ) c).arrAt_in 0 rfl _).trans (dat0_A (inA m ρ) c 0))
    | ⟨1, _⟩, _ => exact (atB_arr m ρ c 1).trans (((dat0 (inA m ρ) c).arrAt_in 1 rfl _).trans (dat0_A (inA m ρ) c 1))
    | ⟨2, _⟩, _ => exact (atB_arr m ρ c 2).trans (((dat0 (inA m ρ) c).arrAt_in 2 rfl _).trans (dat0_A (inA m ρ) c 2))
    | ⟨3, _⟩, hb => exact absurd rfl hb
  · exact atB_of_ne m ρ c b fun w e => h ⟨w, e⟩

/-- After launch 1: its arrays at what the pipeline's write-backs leave, every other buffer as before. -/
def atC (c : Dev nD) : Valuation τ sig (Elt F) :=
  Pipeline.withArrays spec1 c (atB m ρ c) fun w => (dat1 (inB m ρ) c).arrAt w cfg1.N
theorem atC_arr (c : Dev nD) (w : Fin cfg1.W) :
    atC m ρ c (Proc.devRef .tc (Pipeline.arrRef spec1 w)) = (dat1 (inB m ρ) c).arrAt w cfg1.N := by
  unfold atC; exact Pipeline.withArrays_arr spec1 launch1.win.arr_inj c _ _ w
theorem atC_of_ne (c : Dev nD) (b : Ref sig .tc) (hb : ∀ w, Pipeline.arrRef spec1 w ≠ b) :
    atC m ρ c (Proc.devRef .tc b) = atB m ρ c (Proc.devRef .tc b) := by
  unfold atC; exact Pipeline.withArrays_of_ne spec1 c _ _ b hb
/-- The same, read at the TensorCore's references. -/
abbrev inC : (c : Dev nD) → (b : Ref sig .tc) → Buf (Elt F) ((c : Thread nD τ).loc b) := fun c b => atC m ρ c b
theorem left_arr1 (c : Dev nD) (w : Fin cfg1.W) : (dat1 (inB m ρ) c).arrAt w cfg1.N = inC m ρ c (Pipeline.arrRef spec1 w) :=
  (atC_arr m ρ c w).symm
theorem left_rest1 (c : Dev nD) : ∀ b, b ∉ Finset.univ.image (Pipeline.arrRef spec1) → inC m ρ c b = inB m ρ c b :=
  fun b hb => atC_of_ne m ρ c b fun w e => hb (Finset.mem_image.mpr ⟨w, Finset.mem_univ _, e⟩)
/-- Launch 1 changes one buffer only, its output array `main_call0_v3`: an input window's array ends as it was
    found (its blocks are only read), and a buffer that is no window's array is not touched. -/
theorem atC_kept (c : Dev nD) (b : Ref sig .tc) (hb : b ≠ main_call0_v3) :
    atC m ρ c (Proc.devRef .tc b) = atB m ρ c (Proc.devRef .tc b) := by
  by_cases h : ∃ w, Pipeline.arrRef spec1 w = b
  · obtain ⟨w, rfl⟩ := h
    match w, hb with
    | ⟨0, _⟩, _ => exact (atC_arr m ρ c 0).trans (((dat1 (inB m ρ) c).arrAt_in 0 rfl _).trans (dat1_A (inB m ρ) c 0))
    | ⟨1, _⟩, _ => exact (atC_arr m ρ c 1).trans (((dat1 (inB m ρ) c).arrAt_in 1 rfl _).trans (dat1_A (inB m ρ) c 1))
    | ⟨2, _⟩, _ => exact (atC_arr m ρ c 2).trans (((dat1 (inB m ρ) c).arrAt_in 2 rfl _).trans (dat1_A (inB m ρ) c 2))
    | ⟨3, _⟩, _ => exact (atC_arr m ρ c 3).trans (((dat1 (inB m ρ) c).arrAt_in 3 rfl _).trans (dat1_A (inB m ρ) c 3))
    | ⟨4, _⟩, hb => exact absurd rfl hb
  · exact atC_of_ne m ρ c b fun w e => h ⟨w, e⟩

/-- After launch 2: its arrays at what the pipeline's write-backs leave, every other buffer as before. -/
def atD (c : Dev nD) : Valuation τ sig (Elt F) :=
  Pipeline.withArrays spec2 c (atC m ρ c) fun w => (dat2 (inC m ρ) c).arrAt w cfg2.N
theorem atD_arr (c : Dev nD) (w : Fin cfg2.W) :
    atD m ρ c (Proc.devRef .tc (Pipeline.arrRef spec2 w)) = (dat2 (inC m ρ) c).arrAt w cfg2.N := by
  unfold atD; exact Pipeline.withArrays_arr spec2 launch2.win.arr_inj c _ _ w
theorem atD_of_ne (c : Dev nD) (b : Ref sig .tc) (hb : ∀ w, Pipeline.arrRef spec2 w ≠ b) :
    atD m ρ c (Proc.devRef .tc b) = atC m ρ c (Proc.devRef .tc b) := by
  unfold atD; exact Pipeline.withArrays_of_ne spec2 c _ _ b hb
/-- The same, read at the TensorCore's references. -/
abbrev inD : (c : Dev nD) → (b : Ref sig .tc) → Buf (Elt F) ((c : Thread nD τ).loc b) := fun c b => atD m ρ c b
theorem left_arr2 (c : Dev nD) (w : Fin cfg2.W) : (dat2 (inC m ρ) c).arrAt w cfg2.N = inD m ρ c (Pipeline.arrRef spec2 w) :=
  (atD_arr m ρ c w).symm
theorem left_rest2 (c : Dev nD) : ∀ b, b ∉ Finset.univ.image (Pipeline.arrRef spec2) → inD m ρ c b = inC m ρ c b :=
  fun b hb => atD_of_ne m ρ c b fun w e => hb (Finset.mem_image.mpr ⟨w, Finset.mem_univ _, e⟩)
/-- Launch 2 changes one buffer only, its output array `main_v0`: an input window's array ends as it was
    found (its blocks are only read), and a buffer that is no window's array is not touched. -/
theorem atD_kept (c : Dev nD) (b : Ref sig .tc) (hb : b ≠ main_v0) :
    atD m ρ c (Proc.devRef .tc b) = atC m ρ c (Proc.devRef .tc b) := by
  by_cases h : ∃ w, Pipeline.arrRef spec2 w = b
  · obtain ⟨w, rfl⟩ := h
    match w, hb with
    | ⟨0, _⟩, _ => exact (atD_arr m ρ c 0).trans (((dat2 (inC m ρ) c).arrAt_in 0 rfl _).trans (dat2_A (inC m ρ) c 0))
    | ⟨1, _⟩, _ => exact (atD_arr m ρ c 1).trans (((dat2 (inC m ρ) c).arrAt_in 1 rfl _).trans (dat2_A (inC m ρ) c 1))
    | ⟨2, _⟩, _ => exact (atD_arr m ρ c 2).trans (((dat2 (inC m ρ) c).arrAt_in 2 rfl _).trans (dat2_A (inC m ρ) c 2))
    | ⟨3, _⟩, hb => exact absurd rfl hb
  · exact atD_of_ne m ρ c b fun w e => h ⟨w, e⟩

/-- The reshapes write their two result rows only. -/
theorem atA_kept (c : Dev nD) (b : Ref sig .tc) (hb : b ∉ hostOps0_W) :
    atA m ρ c (Proc.devRef .tc b) = m ((c : Thread nD τ).loc b) :=
  (StableHlo.after_of_writes_sub hostOps0 _ hostOps0_writes hb).trans rfl

/-- A buffer that no segment writes — every argument array — ends as launched. -/
theorem atD_untouched (c : Dev nD) (b : Ref sig .tc) (h3 : b ≠ main_v0) (h2 : b ≠ main_call0_v3) (h1 : b ≠ main_call0_v2)
    (h0 : b ∉ hostOps0_W) : atD m ρ c (Proc.devRef .tc b) = m ((c : Thread nD τ).loc b) :=
  (atD_kept m ρ c b h3).trans <| (atC_kept m ρ c b h2).trans <| (atB_kept m ρ c b h1).trans (atA_kept m ρ c b h0)

/-! ## The proof data of the three launches, each at its entry contents -/

def pdats : (p : Fin 3) → (c : Dev nD) → Dat τ (Elt F) Unit ℕ (UR sig nD τ) ℕ (Pipeline.pin (pcfgs (F := F)) adm p) c
  | ⟨0, _⟩ => fun c => dat0 (inA m ρ) c
  | ⟨1, _⟩ => fun c => dat1 (inB m ρ) c
  | ⟨2, _⟩ => fun c => dat2 (inC m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's random-number register at some state
    and the fact that it owes nothing. -/
abbrev R (c : Dev nD) : sProp 𝕄 := iprop((∃ r, prngReg c r) ∗ ∃ W, owes (c : Thread nD τ) (0 : CellTallies nD τ sig Unit) W)
/-- The reshapes as a segment. -/
abbrev reshapes : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (atStart m ρ) R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, without the debt: every unscoped buffer at the last boundary's contents. -/
abbrev Tₙ (c : Dev nD) : sProp 𝕄 := iprop(StableHlo.held (c : Thread nD τ) (Pipeline.ucRefs τ sig) (atD m ρ c) ∗ ∃ r, prngReg c r)

/-! ## The launches as segments -/

set_option backward.isDefEq.respectTransparency.types false in
/-- Launch 0 as a segment of the program: entered with every unscoped buffer at the contents before it, left
    with the launch's arrays at what its write-backs leave and every other buffer untouched.  The launch's arrays
    are split out of the unscoped buffers at entry and put back at exit; the random-number register rides
    through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (norm_router_obligation (inA m ρ) c).loose
  hwaits := Pipeline.hwaits_of_owed_zero _ _ _ _ L lv 0 fun _ _ => rfl
  pre c := iprop(StableHlo.held (c : Thread nD τ) (Pipeline.ucRefs τ sig) (atA m ρ c) ∗ R c)
  post c := iprop(StableHlo.held (c : Thread nD τ) (Pipeline.ucRefs τ sig) (atB m ρ c) ∗ R c)
  X c := iprop(∃ r, prngReg c r)
  Y c := iprop(∃ r, prngReg c r)
  Z c := Pipeline.unscopedRest (Ix := Unit) (Name := ℕ) (U := UR sig nD τ) (Lvl := ℕ) spec0 c (inA m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (inA m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (inA m ρ c) (inB m ρ c) ((pdats m ρ 0 c).arrAt · cfg0.N) (left_arr0 m ρ c) (left_rest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment of the program: entered with every unscoped buffer at the contents before it, left
    with the launch's arrays at what its write-backs leave and every other buffer untouched.  The launch's arrays
    are split out of the unscoped buffers at entry and put back at exit; the random-number register rides
    through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (ffn_obligation (inB m ρ) c).loose
  hwaits := Pipeline.hwaits_of_owed_zero _ _ _ _ L lv 1 fun _ _ => rfl
  pre c := iprop(StableHlo.held (c : Thread nD τ) (Pipeline.ucRefs τ sig) (atB m ρ c) ∗ R c)
  post c := iprop(StableHlo.held (c : Thread nD τ) (Pipeline.ucRefs τ sig) (atC m ρ c) ∗ R c)
  X c := iprop(∃ r, prngReg c r)
  Y c := iprop(∃ r, prngReg c r)
  Z c := Pipeline.unscopedRest (Ix := Unit) (Name := ℕ) (U := UR sig nD τ) (Lvl := ℕ) spec1 c (inB m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (inB m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (inB m ρ c) (inC m ρ c) ((pdats m ρ 1 c).arrAt · cfg1.N) (left_arr1 m ρ c) (left_rest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment of the program: entered with every unscoped buffer at the contents before it, left
    with the launch's arrays at what its write-backs leave and every other buffer untouched.  The launch's arrays
    are split out of the unscoped buffers at entry and put back at exit; the random-number register rides
    through the invariant; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (residual_obligation (inC m ρ) c).loose
  hwaits := Pipeline.hwaits_of_owed_zero _ _ _ _ L lv 2 fun _ _ => rfl
  pre c := iprop(StableHlo.held (c : Thread nD τ) (Pipeline.ucRefs τ sig) (atC m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (inC m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (inC m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (inC m ρ c) (inD m ρ c) ((pdats m ρ 2 c).arrAt · cfg2.N) (left_arr2 m ρ c) (left_rest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m ρ) () defs₀ 𝒱₀ L lv) :=
  [ .host (reshapes m ρ), .region (reg0 m ρ), .region (reg1 m ρ), .region (reg2 m ρ) ]
theorem main_is_segs (c : Dev nD) : main (F := F) c = Pipeline.Seg.run (segs m ρ) := (main_chain c).trans (by chain_rfl)

set_option backward.isDefEq.respectTransparency.types false in
/-- THE RUN: from any memory with zero counters, every weakly fair execution of the program terminates, nothing
    faulting, and the final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = atD m ρ c b) :=
  Pipeline.θ_run_regions_kit (pcfgs (F := F)) adm (pdats m ρ) () cellOf_inj emb₁ defs₀ 𝒱₀ L lv m ρ main (segs m ρ)
    (fun c Q => by rw [main_is_segs m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (atStart m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (atStart m ρ c)
        from Pipeline.unscopedBufs_held c (atStart m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = atD m ρ c b)
    (hfin := fun c s' => by
      iintro ⟨⟨Hh, -⟩, HSI⟩
      unfold StableHlo.held
      imodintro
      iapply (pointsTo_read_all (Pipeline.ucRefs τ sig) (fun b => (((c : Thread nD τ)).1, b)) (atD m ρ c) s')
      isplitl [Hh] <;> iassumption)
    (hQ := fun s h => h)

/-- THE FRAME: the seven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (atD_untouched m ρ c main_arg0 (by decide) (by decide) (by decide) (by decide)),
     (h c _ (mem_uc main_arg1 (by decide))).trans (atD_untouched m ρ c main_arg1 (by decide) (by decide) (by decide) (by decide)),
     (h c _ (mem_uc main_arg2 (by decide))).trans (atD_untouched m ρ c main_arg2 (by decide) (by decide) (by decide) (by decide)),
     (h c _ (mem_uc main_arg3 (by decide))).trans (atD_untouched m ρ c main_arg3 (by decide) (by decide) (by decide) (by decide)),
     (h c _ (mem_uc main_arg4 (by decide))).trans (atD_untouched m ρ c main_arg4 (by decide) (by decide) (by decide) (by decide)),
     (h c _ (mem_uc main_arg5 (by decide))).trans (atD_untouched m ρ c main_arg5 (by decide) (by decide) (by decide) (by decide)),
     (h c _ (mem_uc main_arg6 (by decide))).trans (atD_untouched m ρ c main_arg6 (by decide) (by decide) (by decide) (by decide))⟩)
    (run_all m ρ)

end Cert.KernelIdeal.Hand

end
-- ==== Proof.Spec.lean ====
/-
  The mathematics shared by the two programs, on the extended reals and free of any program text.

  One row of tokens x (2048 lanes) is scaled by the reciprocal root of (mean of its squares + epsilon) and
  by the norm weight; its router logit is the inner product of that with the router weight; the row is
  ACTIVE when the sigmoid of the logit exceeds the threshold.  The feed-forward result of a row a is
  ffn(a)(d) = ∑ over the 8192 hidden units h of [u·sigmoid(u)·v](h) · w2(d, h), u = a · w1(h, ·), v = a · w3(h, ·).

  Two facts join the kernel to the reference.
  (1) Summing the hidden units in 32 blocks of 256 is summing them all: addition on the extended reals is
      commutative and associative, so only the grouping changes.
  (2) Multiplying the row by its gate g ∈ {0, 1} BEFORE the feed-forward equals selecting AFTER it: with
      g = 1 the row is unchanged (a · 1 = a); with g = 0 every product with a zero factor is zero on the
      extended reals (0 · w = 0 for every w, infinite or not), so u = v = 0, every hidden value is
      (0 · sigmoid 0) · 0 = 0, the feed-forward is 0, and 0 · gamma = 0 is what the reference selects.
  Neither fact needs the inputs to be finite.
-/
import Idealize.ShloMosaic.PureOps.Ideal
import Idealize.ShloMosaic.PureOps.Ideal.Laws
import Idealize.ShloMosaic.Lib.ValueIdx

noncomputable section

namespace Cert.Spec

open Idealize.ShloMosaic

/-- The three literals both programs share, as their binary values: 2048, epsilon, the threshold. -/
abbrev lanes : EReal := Ideal.ofBits .f32 0x45000000#32
abbrev eps : EReal := Ideal.ofBits .f32 0x358637BD#32
abbrev thr : EReal := Ideal.ofBits .f32 0x3EB33333#32

/-- The literal 1.0 denotes the real 1 (it appears in the reference's spelt-out sigmoid, 1 / (1 + e⁻ˣ)). -/
theorem one_bits : Ideal.ofBits .f32 0x3F800000#32 = 1 := by
  simp [Ideal.ofBits, Ideal.ieee, -EReal.coe_mul]; norm_num

/-- The reciprocal root of the row's mean square plus epsilon. -/
def rowScale (x : Fin 2048 → EReal) : EReal := Ideal.rsqrt (Ideal.div (∑ k, x k * x k) lanes + eps)
/-- The normalised row. -/
def normed (x nw : Fin 2048 → EReal) (c : Fin 2048) : EReal := x c * rowScale x * nw c
/-- The router logit of the row. -/
def logit (x nw rw : Fin 2048 → EReal) : EReal := ∑ c, normed x nw c * rw c
/-- The row's gate bit: sigmoid(logit) > threshold. -/
def gate (x nw rw : Fin 2048 → EReal) : BitVec 1 := Ideal.cmp .ogt (Ideal.logistic (logit x nw rw)) thr
/-- The gate bit as a number: 1 or 0. -/
def act (b : BitVec 1) : EReal := (((b.setWidth 32).toInt : ℝ) : EReal)

theorem act_one : act 1#1 = 1 := by
  unfold act; rw [show ((1#1 : BitVec 1).setWidth 32).toInt = 1 by decide]; norm_num
theorem act_zero : act 0#1 = 0 := by
  unfold act; rw [show ((0#1 : BitVec 1).setWidth 32).toInt = 0 by decide]; norm_num

/-- A row's inner product with row h of a weight matrix. -/
def pre (a : Fin 2048 → EReal) (W : Fin 8192 → Fin 2048 → EReal) (h : Fin 8192) : EReal := ∑ c, a c * W h c
/-- The hidden value u · sigmoid(u) · v at hidden unit h. -/
def hid (a : Fin 2048 → EReal) (W1 W3 : Fin 8192 → Fin 2048 → EReal) (h : Fin 8192) : EReal :=
  pre a W1 h * Ideal.logistic (pre a W1 h) * pre a W3 h
/-- The feed-forward result at output lane d. -/
def ffn (a : Fin 2048 → EReal) (W1 W3 : Fin 8192 → Fin 2048 → EReal) (W2 : Fin 2048 → Fin 8192 → EReal) (d : Fin 2048) : EReal :=
  ∑ h, hid a W1 W3 h * W2 d h

/-- Hidden unit k of block j. -/
def unit (j : Fin 32) (k : Fin 256) : Fin 8192 := ⟨256 * j.val + k.val, by have := j.isLt; have := k.isLt; omega⟩

/-- (1) A sum over the 8192 hidden units taken in 32 blocks of 256 is the sum over them all. -/
theorem sum_blocks {M : Type*} [AddCommMonoid M] (f : Fin 8192 → M) :
    ∑ j : Fin 32, ∑ k : Fin 256, f (unit j k) = ∑ h, f h := by
  rw [← Fintype.sum_prod_type' (fun j k => f (unit j k))]
  refine Fintype.sum_equiv (finProdFinEquiv (m := 32) (n := 256)) _ f fun jk => congrArg f (Fin.ext ?_)
  obtain ⟨j, k⟩ := jk
  show 256 * j.val + k.val = k.val + 256 * j.val
  omega

/-- The feed-forward result accumulated block by block. -/
def ffnBlocks (a : Fin 2048 → EReal) (W1 W3 : Fin 8192 → Fin 2048 → EReal) (W2 : Fin 2048 → Fin 8192 → EReal) (d : Fin 2048) : EReal :=
  ∑ j : Fin 32, ∑ k : Fin 256, hid a W1 W3 (unit j k) * W2 d (unit j k)

theorem ffnBlocks_eq (a : Fin 2048 → EReal) (W1 W3 : Fin 8192 → Fin 2048 → EReal) (W2 : Fin 2048 → Fin 8192 → EReal) (d : Fin 2048) :
    ffnBlocks a W1 W3 W2 d = ffn a W1 W3 W2 d :=
  sum_blocks fun h => hid a W1 W3 h * W2 d h

/-- The zero row has zero inner products, -/
theorem pre_zero (W : Fin 8192 → Fin 2048 → EReal) (h : Fin 8192) : pre (fun _ => 0) W h = 0 := by
  unfold pre; simp
/-- hence zero hidden values, -/
theorem hid_zero (W1 W3 : Fin 8192 → Fin 2048 → EReal) (h : Fin 8192) : hid (fun _ => 0) W1 W3 h = 0 := by
  unfold hid; rw [pre_zero, pre_zero]; simp
/-- hence a zero feed-forward result. -/
theorem ffn_zero (W1 W3 : Fin 8192 → Fin 2048 → EReal) (W2 : Fin 2048 → Fin 8192 → EReal) (d : Fin 2048) :
    ffn (fun _ => 0) W1 W3 W2 d = 0 := by
  unfold ffn; simp [hid_zero]

/-- (2) Gating the row before the feed-forward is selecting after it. -/
theorem gate_before_is_select_after (n : Fin 2048 → EReal) (W1 W3 : Fin 8192 → Fin 2048 → EReal)
    (W2 : Fin 2048 → Fin 8192 → EReal) (d : Fin 2048) (g xd : EReal) (b : BitVec 1) :
    xd + ffnBlocks (fun c => n c * act b) W1 W3 W2 d * g = xd + Scalar.select b (ffn n W1 W3 W2 d * g) 0 := by
  rw [ffnBlocks_eq]
  rcases BitVec.eq_zero_or_eq_one b with h | h
  · subst h
    rw [act_zero, ValueIdx.select_zero]
    have : (fun c => n c * (0 : EReal)) = fun _ => 0 := funext fun c => mul_zero _
    rw [this, ffn_zero, zero_mul]
  · subst h
    rw [act_one, ValueIdx.select_one]
    have : (fun c => n c * (1 : EReal)) = n := funext fun c => mul_one _
    rw [this]

end Cert.Spec

end
-- ==== Proof.LibColumn.lean ====
/-
  Three layout operations on a column, each read at an index by its coordinates: a column `[a, 1]` broadcast
  along its unit axis to `[a, b]` reads the column's row; a vector `[a]` cast to the column `[a, 1]` reads the
  vector at the row; and any array cast to a shape of the same extents is itself. Together they are what a
  row-wise reduction kept as a column (`sum(axis = 1, keepdims = True)`) and a per-row factor spread over a
  row's lanes need. General in the extents and the element type.
-/
import Idealize.ShloMosaic.Lib.ValueIdx
import Idealize.ShloMosaic.Lib.ValueLayout
import Idealize.ShloMosaic.Lib.Pipeline.Value

noncomputable section

namespace Idealize.ShloMosaic.ValueIdx

variable {α : Type}

/-- A column `[a, 1]` broadcast to `[a, b]` reads, at `(p, q)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Idealize.ShloMosaic.ValueIdx

end
-- ==== Proof.Ideal.NormRouterValue.lean ====
/-
  The first launch read as values on the extended reals: after it the output array holds, in row r, the
  normalised row of x (scaled by the reciprocal root of its mean square plus epsilon and by the norm weight)
  times the row's gate, 1 or 0.  A row's entry depends on that whole row of x and on the two weight rows;
  the body's result at a grid point is the block of that one whole-array function (rows 256·t … 256·t + 255),
  and the eight blocks cover the array.
-/
import proofs.«175990_g24111946400455_cont_8to1_1544_11_alg».proof.Proof.Ideal.NormRouter
import proofs.«175990_g24111946400455_cont_8to1_1544_11_alg».proof.Proof.Spec
import proofs.«175990_g24111946400455_cont_8to1_1544_11_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Cert.Spec (rowScale normed logit gate act)

theorem origin0 : (![0, 0] : Fin 2 → Nat) = fun _ => 0 := funext fun a => by fin_cases a <;> rfl

/-- A lane sum of a tile, read at row p: the sum of the row's 2048 entries. -/
theorem lane_sum (y : FVec Ideal S256x2048 .f32) (p : Fin 256) :
    FloatOps.reduceAdd (F := Ideal) [1] reduces_S256x2048_S256 y (ix1 p) = ∑ k : Fin 2048, y (ix2 p k) := by
  refine (show FloatOps.reduceAdd (F := Ideal) [1] reduces_S256x2048_S256 y (ix1 p) = _ from
    Ideal.multiReduction_add_single y 0x00000000#32 reduces_S256x2048_S256 (.inl rfl) rfl (ix1 p)).trans ?_
  exact Finset.sum_congr rfl fun k _ => congrArg y (funext fun a => Fin.ext (by match a with | ⟨0, _⟩ => rfl | ⟨1, _⟩ => rfl))

theorem rsqrt_at {s : Shape} (v : FVec Ideal s .f32) (i : s.Idx) : rsqrt v i = Ideal.rsqrt (v i) := rfl
theorem logistic_at {s : Shape} (v : FVec Ideal s .f32) (i : s.Idx) : logistic v i = Ideal.logistic (v i) := rfl

/-- The body's result at row p, lane q of the tile: the normalised row at q times the row's gate. -/
theorem gated_local (x : FVec Ideal S256x2048 .f32) (nw rw : FVec Ideal S1x2048 .f32) (p : Fin 256) (q : Fin 2048) :
    k0_pay1 (F := Ideal) x nw rw (ix2 p q)
      = normed (fun k => x (ix2 p k)) (fun k => nw (ix2 (0 : Fin 1) k)) q
          * act (gate (fun k => x (ix2 p k)) (fun k => nw (ix2 (0 : Fin 1) k)) (fun k => rw (ix2 (0 : Fin 1) k))) := by
  unfold k0_pay1
  simp only [multiReduction, truncf_apply, mulf_apply, broadcastTo_a1_ab_apply, broadcastTo_1b_ab_apply, shapeCast_self, sitofp_apply,
    extui_apply, cmpf_apply, broadcast_apply, shapeCast_a_a1_apply, addf_apply, divf_apply, rsqrt_at, logistic_at]
  repeat (rw [lane_sum]; try simp only [mulf_apply, broadcastTo_a1_ab_apply, broadcastTo_1b_ab_apply, shapeCast_self,
    broadcast_apply, shapeCast_a_a1_apply, addf_apply, divf_apply, rsqrt_at])
  rfl

/-- The gated normalised activations as one function of the whole arrays. -/
def gatedArr (X : S2048x2048.Idx → EReal) (nw rw : S1x2048.Idx → EReal) : S2048x2048.Idx → EReal := fun i =>
  normed (fun k => X (ix2 (⟨(i 0).val, (i 0).isLt⟩ : Fin 2048) k)) (fun k => nw (ix2 (0 : Fin 1) k)) (⟨(i 1).val, (i 1).isLt⟩ : Fin 2048)
    * act (gate (fun k => X (ix2 (⟨(i 0).val, (i 0).isLt⟩ : Fin 2048) k)) (fun k => nw (ix2 (0 : Fin 1) k)) (fun k => rw (ix2 (0 : Fin 1) k)))

/-- The body's result at an element of the tile is the whole-array function at the matching element, once
    the tile's row is the array's row and the weight rows agree. -/
theorem gated_point (x : FVec Ideal S256x2048 .f32) (nw rw : FVec Ideal S1x2048 .f32)
    (X : S2048x2048.Idx → EReal) (NW RW : S1x2048.Idx → EReal) (j : S256x2048.Idx) (i : S2048x2048.Idx)
    (hrow : ∀ k : Fin 2048, x (ix2 (⟨(j 0).val, (j 0).isLt⟩ : Fin 256) k) = X (ix2 (⟨(i 0).val, (i 0).isLt⟩ : Fin 2048) k))
    (hq : (j 1).val = (i 1).val)
    (hnw : ∀ k : Fin 2048, nw (ix2 (0 : Fin 1) k) = NW (ix2 (0 : Fin 1) k))
    (hrw : ∀ k : Fin 2048, rw (ix2 (0 : Fin 1) k) = RW (ix2 (0 : Fin 1) k)) :
    k0_pay1 (F := Ideal) x nw rw j = gatedArr X NW RW i := by
  obtain ⟨p, q, rfl⟩ : ∃ (p : Fin 256) (q : Fin 2048), j = ix2 p q := ⟨j 0, j 1, eq_ix2 j⟩
  rw [gated_local]
  unfold gatedArr
  have e1 : (fun k => x (ix2 p k)) = fun k => X (ix2 (⟨(i 0).val, (i 0).isLt⟩ : Fin 2048) k) := funext hrow
  have e2 : (fun k => nw (ix2 (0 : Fin 1) k)) = fun k => NW (ix2 (0 : Fin 1) k) := funext hnw
  have e3 : (fun k => rw (ix2 (0 : Fin 1) k)) = fun k => RW (ix2 (0 : Fin 1) k) := funext hrw
  have e4 : q = (⟨(i 1).val, (i 1).isLt⟩ : Fin 2048) := Fin.ext hq
  rw [e1, e2, e3, e4]

/-- The index maps over the eight grid points: the two 256-row windows sit at row block `t`, the two single rows at the origin. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `gatedArr` of the arrays as the launch found them. -/
theorem gated_flushed (c : Dev nD) (t : Fin cfg0.N) :
    (dat0 V c).flushed 3 t = ((cfg0.win 3).blk t).view.read (Elt Ideal)
      (gatedArr (V c main_arg0) (V c main_call0_v0) (V c main_arg2)) := by
  show (cfg0.win 3).cut (grid0.coords t) ((dat0 V c).after 3 t) = _
  rw [dat0_after3]
  unfold gated0
  rw [View.canon_unit_zero origin0]
  simp only [View.ld_unit_zero (S := S256x2048) origin0, View.ld_unit_zero (S := S1x2048) origin0]
  obtain ⟨e00, e01, e10, e11, e20, e21, e30, e31⟩ := index0 t
  funext j
  refine gated_point _ _ _ _ _ _ j (((cfg0.win 3).blk t).view.emb j) (fun k => ?_) ?_ (fun k => ?_) (fun k => ?_)
  · show V c main_arg0 (((cfg0.win 0).blk t).view.emb (ix2 (⟨(j 0).val, (j 0).isLt⟩ : Fin 256) k)) = V c main_arg0 _
    refine congrArg _ (funext fun a => Fin.ext ?_)
    match a with
    | ⟨0, _⟩ => show win0_0.index t (0 : Fin 2) * 256 + 1 * (j 0).val = win0_3.index t (0 : Fin 2) * 256 + 1 * (j 0).val; omega
    | ⟨1, _⟩ => show win0_0.index t (1 : Fin 2) * 2048 + 1 * k.val = k.val; omega
  · show (j 1).val = win0_3.index t (1 : Fin 2) * 2048 + 1 * (j 1).val; omega
  · show V c main_call0_v0 (((cfg0.win 1).blk t).view.emb (ix2 (0 : Fin 1) k)) = V c main_call0_v0 _
    refine congrArg _ (funext fun a => Fin.ext ?_)
    match a with
    | ⟨0, _⟩ => show win0_1.index t (0 : Fin 2) * 1 + 1 * 0 = 0; omega
    | ⟨1, _⟩ => show win0_1.index t (1 : Fin 2) * 2048 + 1 * k.val = k.val; omega
  · show V c main_arg2 (((cfg0.win 2).blk t).view.emb (ix2 (0 : Fin 1) k)) = V c main_arg2 _
    refine congrArg _ (funext fun a => Fin.ext ?_)
    match a with
    | ⟨0, _⟩ => show win0_2.index t (0 : Fin 2) * 1 + 1 * 0 = 0; omega
    | ⟨1, _⟩ => show win0_2.index t (1 : Fin 2) * 2048 + 1 * k.val = k.val; omega

/-- An index of the output array is in point `t`'s block iff each coordinate is in the block's range. -/
theorem gated_mem (t : Fin cfg0.N) (i : S2048x2048.Idx) :
    i ∈ ((cfg0.win 3).blk t).view.set ↔ ∀ a : Fin 2, win0_3.index t a * S256x2048.size a ≤ (i a).val ∧ (i a).val < win0_3.index t a * S256x2048.size a + S256x2048.size a := by
  show i ∈ ((View.whole main_call0_v2).slice (win0_3.rect t)).set ↔ _
  rw [View.set_slice_whole, Rect.mem_set_unit]
  exact Iff.rfl

/-- Row r lies in the block of point r / 256: the eight blocks cover the array. -/
theorem gated_cover (i : S2048x2048.Idx) : ∃ t : Fin cfg0.N, (cfg0.win 3).flush t = true ∧ i ∈ ((cfg0.win 3).blk t).view.set := by
  have hi0 : (i 0).val < 2048 := (i 0).isLt
  have hi1 : (i 1).val < 2048 := (i 1).isLt
  refine ⟨⟨(i 0).val / 256, by rw [show cfg0.N = 8 from N_0]; omega⟩, flush0_3 _, ?_⟩
  rw [gated_mem]
  obtain ⟨-, -, -, -, -, -, e30, e31⟩ := index0 ⟨(i 0).val / 256, by rw [show cfg0.N = 8 from N_0]; omega⟩
  intro a
  match a with
  | ⟨0, _⟩ =>
    show win0_3.index _ (0 : Fin 2) * 256 ≤ (i 0).val ∧ (i 0).val < win0_3.index _ (0 : Fin 2) * 256 + 256
    rw [e30]; show (i 0).val / 256 * 256 ≤ (i 0).val ∧ (i 0).val < (i 0).val / 256 * 256 + 256; omega
  | ⟨1, _⟩ =>
    show win0_3.index _ (1 : Fin 2) * 2048 ≤ (i 1).val ∧ (i 1).val < win0_3.index _ (1 : Fin 2) * 2048 + 2048
    rw [e31]; omega

/-- THE OUTPUT ARRAY after the launch: the gated normalised activations of the arrays it found. -/
theorem gated_array (c : Dev nD) : (dat0 V c).arrAt 3 cfg0.N = gatedArr (V c main_arg0) (V c main_call0_v0) (V c main_arg2) :=
  (dat0 V c).arrAt_eq_of_cover 3 _ (fun t _ => gated_flushed V c t) (gated_cover)

end Cert.KernelIdeal.Hand

end
-- ==== Proof.Ideal.FfnValue.lean ====
/-
  The second launch read as values on the extended reals.  At grid point t the body's partial product is,
  at (r, d), the sum over the 256 hidden units of block t of [u · sigmoid(u) · v] · w2(d, ·), where u and v are
  row r of the activations against those units' rows of w1 and w3 — the weight blocks being rows
  256·t … 256·t + 255 of w1 and w3 and the same columns of w2.  The output block starts as the first partial
  product and each later point adds its own, so after the last point it holds the sum of all 32, which is
  what the one write-back (after the last point, of the whole array) leaves.
-/
import proofs.«175990_g24111946400455_cont_8to1_1544_11_alg».proof.Proof.Ideal.Ffn
import proofs.«175990_g24111946400455_cont_8to1_1544_11_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

open Cert.Spec (pre hid unit ffnBlocks)

theorem origin1 : (![0, 0] : Fin 2 → Nat) = fun _ => 0 := funext fun a => by fin_cases a <;> rfl

/-- The two contractions' dimension records: activations [2048, 2048] against a weight block [256, 2048] over the
    lanes, and hidden values [2048, 256] against a weight block [2048, 256] over the block's hidden units. -/
abbrev dIn := dot_S2048x2048_S256x2048_S2048x256_1_1_0_0_n_n
abbrev dOut := dot_S2048x256_S2048x256_S2048x2048_1_1_0_0_n_n

theorem dIn_lhs0 (i : S2048x256.Idx) (q : dIn.contr.Idx) : (dIn.lhsIdx i q 0).val = (i 0).val := by
  unfold DotDims.lhsIdx
  rw [dif_neg (show ¬(0 : Fin S2048x2048.rank) ∈ dIn.lhsBatch by decide), dif_pos (show (0 : Fin S2048x2048.rank) ∈ dIn.lhsNonContracting by decide)]
  rfl
theorem dIn_lhs1 (i : S2048x256.Idx) (q : dIn.contr.Idx) : (dIn.lhsIdx i q 1).val = (q ⟨0, by decide⟩).val :=
  dIn.lhsIdx_val_of_single rfl i q
theorem dIn_rhs0 (i : S2048x256.Idx) (q : dIn.contr.Idx) : (dIn.rhsIdx i q 0).val = (i 1).val := by
  unfold DotDims.rhsIdx
  rw [dif_neg (show ¬(0 : Fin S256x2048.rank) ∈ dIn.rhsBatch by decide), dif_pos (show (0 : Fin S256x2048.rank) ∈ dIn.rhsNonContracting by decide)]
  rfl
theorem dIn_rhs1 (i : S2048x256.Idx) (q : dIn.contr.Idx) : (dIn.rhsIdx i q 1).val = (q ⟨0, by decide⟩).val :=
  dIn.rhsIdx_val_of_single rfl i q

theorem dOut_lhs0 (i : S2048x2048.Idx) (q : dOut.contr.Idx) : (dOut.lhsIdx i q 0).val = (i 0).val := by
  unfold DotDims.lhsIdx
  rw [dif_neg (show ¬(0 : Fin S2048x256.rank) ∈ dOut.lhsBatch by decide), dif_pos (show (0 : Fin S2048x256.rank) ∈ dOut.lhsNonContracting by decide)]
  rfl
theorem dOut_lhs1 (i : S2048x2048.Idx) (q : dOut.contr.Idx) : (dOut.lhsIdx i q 1).val = (q ⟨0, by decide⟩).val :=
  dOut.lhsIdx_val_of_single rfl i q
theorem dOut_rhs0 (i : S2048x2048.Idx) (q : dOut.contr.Idx) : (dOut.rhsIdx i q 0).val = (i 1).val := by
  unfold DotDims.rhsIdx
  rw [dif_neg (show ¬(0 : Fin S2048x256.rank) ∈ dOut.rhsBatch by decide), dif_pos (show (0 : Fin S2048x256.rank) ∈ dOut.rhsNonContracting by decide)]
  rfl
theorem dOut_rhs1 (i : S2048x2048.Idx) (q : dOut.contr.Idx) : (dOut.rhsIdx i q 1).val = (q ⟨0, by decide⟩).val :=
  dOut.rhsIdx_val_of_single rfl i q

/-- Activations against a block of weight rows, into a zero accumulator: at (r, k) the inner product of row r with row k. -/
theorem into_hidden (a : FVec Ideal S2048x2048 .bf16) (w : FVec Ideal S256x2048 .bf16) (r : Fin 2048) (k : Fin 256) :
    matmul dIn none a w (constant S2048x256 .f32 0x00000000#32) (ix2 r k) = ∑ c : Fin 2048, a (ix2 r c) * w (ix2 k c) := by
  simp only [matmul]
  rw [Ideal.matmul_constant_zero_apply, ← Equiv.sum_comp (contrEquiv1 dIn 2048 rfl rfl).symm]
  refine Finset.sum_congr rfl fun c _ => ?_
  have hc := contrEquiv1_symm_val dIn 2048 rfl rfl c
  have el : dIn.lhsIdx (ix2 r k) ((contrEquiv1 dIn 2048 rfl rfl).symm c) = ix2 r c := funext fun ax => Fin.ext (by
    match ax with
    | ⟨0, _⟩ => exact dIn_lhs0 _ _
    | ⟨1, _⟩ => exact (dIn_lhs1 _ _).trans hc)
  have er : dIn.rhsIdx (ix2 r k) ((contrEquiv1 dIn 2048 rfl rfl).symm c) = ix2 k c := funext fun ax => Fin.ext (by
    match ax with
    | ⟨0, _⟩ => exact dIn_rhs0 _ _
    | ⟨1, _⟩ => exact (dIn_rhs1 _ _).trans hc)
  rw [el, er]

/-- Hidden values against a block of weight columns, into a zero accumulator: at (r, d) the inner product over the block. -/
theorem out_of_hidden (h : FVec Ideal S2048x256 .bf16) (w : FVec Ideal S2048x256 .bf16) (r d : Fin 2048) :
    matmul dOut none h w (constant S2048x2048 .f32 0x00000000#32) (ix2 r d) = ∑ k : Fin 256, h (ix2 r k) * w (ix2 d k) := by
  simp only [matmul]
  rw [Ideal.matmul_constant_zero_apply, ← Equiv.sum_comp (contrEquiv1 dOut 256 rfl rfl).symm]
  refine Finset.sum_congr rfl fun k _ => ?_
  have hk := contrEquiv1_symm_val dOut 256 rfl rfl k
  have el : dOut.lhsIdx (ix2 r d) ((contrEquiv1 dOut 256 rfl rfl).symm k) = ix2 r k := funext fun ax => Fin.ext (by
    match ax with
    | ⟨0, _⟩ => exact dOut_lhs0 _ _
    | ⟨1, _⟩ => exact (dOut_lhs1 _ _).trans hk)
  have er : dOut.rhsIdx (ix2 r d) ((contrEquiv1 dOut 256 rfl rfl).symm k) = ix2 d k := funext fun ax => Fin.ext (by
    match ax with
    | ⟨0, _⟩ => exact dOut_rhs0 _ _
    | ⟨1, _⟩ => exact (dOut_rhs1 _ _).trans hk)
  rw [el, er]

theorem logistic_on {s : Shape} (v : FVec Ideal s .f32) (i : s.Idx) : logistic v i = Ideal.logistic (v i) := rfl

/-- One point's partial product at (r, d), over the blocks it loaded. -/
theorem partial_local (w1b w3b : FVec Ideal S256x2048 .f32) (w2b : FVec Ideal S2048x256 .f32) (xn : FVec Ideal S2048x2048 .bf16)
    (r d : Fin 2048) :
    k1_pay1 (F := Ideal) w1b w3b w2b xn (ix2 r d)
      = ∑ k : Fin 256, ((∑ c : Fin 2048, xn (ix2 r c) * w1b (ix2 k c)) * Ideal.logistic (∑ c : Fin 2048, xn (ix2 r c) * w1b (ix2 k c))
          * (∑ c : Fin 2048, xn (ix2 r c) * w3b (ix2 k c))) * w2b (ix2 d k) := by
  unfold k1_pay1
  rw [truncf_apply, out_of_hidden]
  refine Finset.sum_congr rfl fun k _ => ?_
  simp only [truncf_apply, mulf_apply, logistic_on, shapeCast_self, into_hidden]

/-- The partial product of hidden block t as one function of the whole arrays. -/
def partArr (A : S2048x2048.Idx → EReal) (W1 W3 : S8192x2048.Idx → EReal) (W2 : S2048x8192.Idx → EReal) (t : Fin 32) :
    S2048x2048.Idx → EReal := fun i =>
  ∑ k : Fin 256, hid (fun c => A (ix2 (⟨(i 0).val, (i 0).isLt⟩ : Fin 2048) c)) (fun h c => W1 (ix2 h c)) (fun h c => W3 (ix2 h c)) (unit t k)
    * W2 (ix2 (⟨(i 1).val, (i 1).isLt⟩ : Fin 2048) (unit t k))

/-- The whole feed-forward result, block by block. -/
def ffnArr (A : S2048x2048.Idx → EReal) (W1 W3 : S8192x2048.Idx → EReal) (W2 : S2048x8192.Idx → EReal) : S2048x2048.Idx → EReal :=
  fun i => ∑ t : Fin 32, partArr A W1 W3 W2 t i

theorem ffnArr_eq (A : S2048x2048.Idx → EReal) (W1 W3 : S8192x2048.Idx → EReal) (W2 : S2048x8192.Idx → EReal) (i : S2048x2048.Idx) :
    ffnArr A W1 W3 W2 i = ffnBlocks (fun c => A (ix2 (⟨(i 0).val, (i 0).isLt⟩ : Fin 2048) c)) (fun h c => W1 (ix2 h c))
      (fun h c => W3 (ix2 h c)) (fun d h => W2 (ix2 d h)) (⟨(i 1).val, (i 1).isLt⟩ : Fin 2048) := rfl

/-- One point's partial product is block t's function of the whole arrays, once the loaded weight blocks are the
    arrays' rows (columns) of block t and the loaded activations are the array. -/
theorem partial_point (w1b w3b : FVec Ideal S256x2048 .f32) (w2b : FVec Ideal S2048x256 .f32) (xn : FVec Ideal S2048x2048 .bf16)
    (A : S2048x2048.Idx → EReal) (W1 W3 : S8192x2048.Idx → EReal) (W2 : S2048x8192.Idx → EReal) (t : Fin 32)
    (hxn : ∀ r c : Fin 2048, xn (ix2 r c) = A (ix2 r c))
    (h1 : ∀ (k : Fin 256) (c : Fin 2048), w1b (ix2 k c) = W1 (ix2 (unit t k) c))
    (h3 : ∀ (k : Fin 256) (c : Fin 2048), w3b (ix2 k c) = W3 (ix2 (unit t k) c))
    (h2 : ∀ (d : Fin 2048) (k : Fin 256), w2b (ix2 d k) = W2 (ix2 d (unit t k)))
    (i : S2048x2048.Idx) :
    k1_pay1 (F := Ideal) w1b w3b w2b xn i = partArr A W1 W3 W2 t i := by
  obtain ⟨r, d, rfl⟩ : ∃ (r d : Fin 2048), i = ix2 r d := ⟨i 0, i 1, eq_ix2 i⟩
  rw [partial_local]
  unfold partArr hid pre
  refine Finset.sum_congr rfl fun k _ => ?_
  simp only [hxn, h1, h3, h2]

/-- The index maps over the 32 grid points: the weight-row windows sit at row block `t`, the weight-column window
    at column block `t`, the activations and the output at the origin. -/
theorem index1 : ∀ t : Fin cfg1.N, win1_0.index t (0 : Fin 2) = 0 ∧ win1_0.index t (1 : Fin 2) = 0
    ∧ win1_1.index t (0 : Fin 2) = t.val ∧ win1_1.index t (1 : Fin 2) = 0
    ∧ win1_2.index t (0 : Fin 2) = 0 ∧ win1_2.index t (1 : Fin 2) = t.val
    ∧ win1_3.index t (0 : Fin 2) = t.val ∧ win1_3.index t (1 : Fin 2) = 0
    ∧ win1_4.index t (0 : Fin 2) = 0 ∧ win1_4.index t (1 : Fin 2) = 0 :=
  (by decide +kernel : ∀ t : Fin grid1.N, _)

theorem lt32 (t : Fin cfg1.N) : t.val < 32 := lt_of_lt_of_eq t.isLt (show cfg1.N = 32 from N_1)

/-- The partial product the body forms at point `t` is block `t`'s function of the arrays as the launch found them. -/
theorem partial_at (c : Dev nD) (t : Fin cfg1.N) (i : S2048x2048.Idx) :
    k1_pay1 (F := Ideal) (blk1 V c 1 t) (blk1 V c 3 t) (blk1 V c 2 t) (blk1 V c 0 t) i
      = partArr (V c main_call0_v2) (V c main_arg3) (V c main_arg5) (V c main_arg4) ⟨t.val, lt32 t⟩ i := by
  obtain ⟨e00, e01, e10, e11, e20, e21, e30, e31, e40, e41⟩ := index1 t
  refine partial_point _ _ _ _ _ _ _ _ ⟨t.val, lt32 t⟩ (fun r q => ?_) (fun k q => ?_) (fun k q => ?_) (fun d k => ?_) i
  · show V c main_call0_v2 (((cfg1.win 0).blk t).view.emb (ix2 r q)) = V c main_call0_v2 _
    refine congrArg _ (funext fun a => Fin.ext ?_)
    match a with
    | ⟨0, _⟩ => show win1_0.index t (0 : Fin 2) * 2048 + 1 * r.val = r.val; omega
    | ⟨1, _⟩ => show win1_0.index t (1 : Fin 2) * 2048 + 1 * q.val = q.val; omega
  · show V c main_arg3 (((cfg1.win 1).blk t).view.emb (ix2 k q)) = V c main_arg3 _
    refine congrArg _ (funext fun a => Fin.ext ?_)
    match a with
    | ⟨0, _⟩ => show win1_1.index t (0 : Fin 2) * 256 + 1 * k.val = 256 * t.val + k.val; omega
    | ⟨1, _⟩ => show win1_1.index t (1 : Fin 2) * 2048 + 1 * q.val = q.val; omega
  · show V c main_arg5 (((cfg1.win 3).blk t).view.emb (ix2 k q)) = V c main_arg5 _
    refine congrArg _ (funext fun a => Fin.ext ?_)
    match a with
    | ⟨0, _⟩ => show win1_3.index t (0 : Fin 2) * 256 + 1 * k.val = 256 * t.val + k.val; omega
    | ⟨1, _⟩ => show win1_3.index t (1 : Fin 2) * 2048 + 1 * q.val = q.val; omega
  · show V c main_arg4 (((cfg1.win 2).blk t).view.emb (ix2 d k)) = V c main_arg4 _
    refine congrArg _ (funext fun a => Fin.ext ?_)
    match a with
    | ⟨0, _⟩ => show win1_2.index t (0 : Fin 2) * 2048 + 1 * d.val = d.val; omega
    | ⟨1, _⟩ => show win1_2.index t (1 : Fin 2) * 256 + 1 * k.val = 256 * t.val + k.val; omega

/-- THE RUNNING SUM: after point n the output block holds the partial products of blocks 0 … n, summed. -/
theorem accAt_sum (c : Dev nD) : ∀ (n : ℕ) (hn : n < cfg1.N) (i : S2048x2048.Idx),
    accAt V c n hn i = ∑ j : Fin (n + 1), partArr (V c main_call0_v2) (V c main_arg3) (V c main_arg5) (V c main_arg4)
      ⟨j.val, lt_of_lt_of_le j.isLt (Nat.succ_le_of_lt (lt_of_lt_of_eq hn (show cfg1.N = 32 from N_1)))⟩ i
  | 0, hn, i => by
    show first1 (blk1 V c 0 ⟨0, hn⟩) (blk1 V c 1 ⟨0, hn⟩) (blk1 V c 2 ⟨0, hn⟩) (blk1 V c 3 ⟨0, hn⟩) i = _
    unfold first1
    rw [View.canon_unit_zero origin1]
    simp only [View.ld_unit_zero (S := S256x2048) origin1, View.ld_unit_zero (S := S2048x256) origin1,
      View.ld_unit_zero (S := S2048x2048) origin1]
    rw [Fin.sum_univ_one]
    exact partial_at V c ⟨0, hn⟩ i
  | n + 1, hn, i => by
    show later1 (blk1 V c 0 ⟨n + 1, hn⟩) (blk1 V c 1 ⟨n + 1, hn⟩) (blk1 V c 2 ⟨n + 1, hn⟩) (blk1 V c 3 ⟨n + 1, hn⟩)
      (accAt V c n (Nat.lt_of_succ_lt hn)) i = _
    unfold later1
    rw [View.canon_unit_zero origin1]
    simp only [View.ld_unit_zero (S := S256x2048) origin1, View.ld_unit_zero (S := S2048x256) origin1,
      View.ld_unit_zero (S := S2048x2048) origin1]
    unfold k1_pay2
    rw [addf_apply, shapeCast_self, accAt_sum c n (Nat.lt_of_succ_lt hn) i]
    refine Eq.trans ?_ (Fin.sum_univ_castSucc _).symm
    exact congrArg (_ + ·) (partial_at V c ⟨n + 1, hn⟩ i)

/-- WHAT THE LAST POINT WRITES BACK is the whole feed-forward result of the arrays as the launch found them. -/
theorem ffn_flushed (c : Dev nD) (t : Fin cfg1.N) (hf : (cfg1.win 4).flush t = true) :
    (dat1 V c).flushed 4 t = ((cfg1.win 4).blk t).view.read (Elt Ideal)
      (ffnArr (V c main_call0_v2) (V c main_arg3) (V c main_arg5) (V c main_arg4)) := by
  have ht : t.val = 31 := by have h1 := (flush1_4 t).mp hf; have h2 := lt32 t; omega
  obtain ⟨-, -, -, -, -, -, -, -, e40, e41⟩ := index1 t
  show (cfg1.win 4).cut (grid1.coords t) ((dat1 V c).after 4 t) = _
  rw [dat1_after4]
  funext j
  show accAt V c t.val t.isLt j = ffnArr _ _ _ _ (((cfg1.win 4).blk t).view.emb j)
  have hemb : ((cfg1.win 4).blk t).view.emb j = j := funext fun a => Fin.ext (by
    match a with
    | ⟨0, _⟩ => show win1_4.index t (0 : Fin 2) * 2048 + 1 * (j 0).val = (j 0).val; omega
    | ⟨1, _⟩ => show win1_4.index t (1 : Fin 2) * 2048 + 1 * (j 1).val = (j 1).val; omega)
  rw [hemb, accAt_sum V c t.val t.isLt j]
  obtain ⟨n, hn⟩ := t
  subst ht
  rfl

theorem ffn_mem (t : Fin cfg1.N) (i : S2048x2048.Idx) :
    i ∈ ((cfg1.win 4).blk t).view.set ↔ ∀ a : Fin 2, win1_4.index t a * S2048x2048.size a ≤ (i a).val ∧ (i a).val < win1_4.index t a * S2048x2048.size a + S2048x2048.size a := by
  show i ∈ ((View.whole main_call0_v3).slice (win1_4.rect t)).set ↔ _
  rw [View.set_slice_whole, Rect.mem_set_unit]
  exact Iff.rfl

/-- The last point's block is the whole array. -/
theorem ffn_cover (i : S2048x2048.Idx) : ∃ t : Fin cfg1.N, (cfg1.win 4).flush t = true ∧ i ∈ ((cfg1.win 4).blk t).view.set := by
  have hi0 : (i 0).val < 2048 := (i 0).isLt
  have hi1 : (i 1).val < 2048 := (i 1).isLt
  refine ⟨⟨31, by rw [show cfg1.N = 32 from N_1]; omega⟩, (flush1_4 _).mpr rfl, ?_⟩
  rw [ffn_mem]
  obtain ⟨-, -, -, -, -, -, -, -, e40, e41⟩ := index1 ⟨31, by rw [show cfg1.N = 32 from N_1]; omega⟩
  intro a
  match a with
  | ⟨0, _⟩ =>
    show win1_4.index _ (0 : Fin 2) * 2048 ≤ (i 0).val ∧ (i 0).val < win1_4.index _ (0 : Fin 2) * 2048 + 2048
    rw [e40]; omega
  | ⟨1, _⟩ =>
    show win1_4.index _ (1 : Fin 2) * 2048 ≤ (i 1).val ∧ (i 1).val < win1_4.index _ (1 : Fin 2) * 2048 + 2048
    rw [e41]; omega

/-- THE OUTPUT ARRAY after the launch: the feed-forward result, block by block, of the arrays it found. -/
theorem ffn_array (c : Dev nD) : (dat1 V c).arrAt 4 cfg1.N = ffnArr (V c main_call0_v2) (V c main_arg3) (V c main_arg5) (V c main_arg4) :=
  (dat1 V c).arrAt_eq_of_cover 4 _ (fun t hf => ffn_flushed V c t hf) (ffn_cover)

end Cert.KernelIdeal.Hand

end
-- ==== Proof.Ideal.ResidualValue.lean ====
/-
  The third launch read as values on the extended reals: after it the output array holds, at every index
  (r, d), x(r, d) + acc(r, d) · gamma(0, d) of the three arrays the launch found.  The body's result at a
  grid point is the block of that one whole-array function (rows 256·t … 256·t + 255), and the eight blocks
  cover the array.
-/
import proofs.«175990_g24111946400455_cont_8to1_1544_11_alg».proof.Proof.Ideal.Residual
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin2 : (![0, 0] : Fin 2 → Nat) = fun _ => 0 := funext fun a => by fin_cases a <;> rfl

/-- x + acc · gamma as one function of the whole arrays. -/
def residArr (X A : S2048x2048.Idx → EReal) (g : S1x2048.Idx → EReal) : S2048x2048.Idx → EReal :=
  fun i => X i + A i * g (ix2 (0 : Fin 1) (⟨(i 1).val, (i 1).isLt⟩ : Fin 2048))

/-- The body's result at an element of the tile, from the three blocks at the matching elements. -/
theorem resid_point (x : FVec Ideal S256x2048 .f32) (a : FVec Ideal S256x2048 .bf16) (g : FVec Ideal S1x2048 .f32)
    (X A : S2048x2048.Idx → EReal) (G : S1x2048.Idx → EReal) (j : S256x2048.Idx) (i : S2048x2048.Idx)
    (hx : x j = X i) (ha : a j = A i)
    (hg : g (ix2 (0 : Fin 1) (⟨(j 1).val, (j 1).isLt⟩ : Fin 2048)) = G (ix2 (0 : Fin 1) (⟨(i 1).val, (i 1).isLt⟩ : Fin 2048))) :
    k2_pay1 (F := Ideal) x a g j = residArr X A G i := by
  obtain ⟨p, q, rfl⟩ : ∃ (p : Fin 256) (q : Fin 2048), j = ix2 p q := ⟨j 0, j 1, eq_ix2 j⟩
  unfold k2_pay1 residArr
  rw [addf_apply, mulf_apply, extf_apply, shapeCast_self, shapeCast_self, broadcastTo_1b_ab_apply, hx, ha]
  exact congrArg (fun z => X i + A i * z) hg

/-- The index maps over the eight grid points: the three 256-row windows sit at row block `t`, the single row at the origin. -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- WHAT POINT `t` WRITES BACK is block `t` of `residArr` of the arrays as the launch found them. -/
theorem resid_flushed (c : Dev nD) (t : Fin cfg2.N) :
    (dat2 V c).flushed 3 t = ((cfg2.win 3).blk t).view.read (Elt Ideal)
      (residArr (V c main_arg0) (V c main_call0_v3) (V c main_call0_v1)) := by
  show (cfg2.win 3).cut (grid2.coords t) ((dat2 V c).after 3 t) = _
  rw [dat2_after3]
  unfold resid2
  rw [View.canon_unit_zero origin2]
  simp only [View.ld_unit_zero (S := S256x2048) origin2, View.ld_unit_zero (S := S1x2048) origin2]
  obtain ⟨e00, e01, e10, e11, e20, e21, e30, e31⟩ := index2 t
  funext j
  refine resid_point _ _ _ _ _ _ j (((cfg2.win 3).blk t).view.emb j) ?_ ?_ ?_
  · show V c main_arg0 (((cfg2.win 0).blk t).view.emb j) = V c main_arg0 (((cfg2.win 3).blk t).view.emb j)
    refine congrArg _ (funext fun a => Fin.ext ?_)
    match a with
    | ⟨0, _⟩ => show win2_0.index t (0 : Fin 2) * 256 + 1 * (j 0).val = win2_3.index t (0 : Fin 2) * 256 + 1 * (j 0).val; omega
    | ⟨1, _⟩ => show win2_0.index t (1 : Fin 2) * 2048 + 1 * (j 1).val = win2_3.index t (1 : Fin 2) * 2048 + 1 * (j 1).val; omega
  · show V c main_call0_v3 (((cfg2.win 1).blk t).view.emb j) = V c main_call0_v3 (((cfg2.win 3).blk t).view.emb j)
    refine congrArg _ (funext fun a => Fin.ext ?_)
    match a with
    | ⟨0, _⟩ => show win2_1.index t (0 : Fin 2) * 256 + 1 * (j 0).val = win2_3.index t (0 : Fin 2) * 256 + 1 * (j 0).val; omega
    | ⟨1, _⟩ => show win2_1.index t (1 : Fin 2) * 2048 + 1 * (j 1).val = win2_3.index t (1 : Fin 2) * 2048 + 1 * (j 1).val; omega
  · show V c main_call0_v1 (((cfg2.win 2).blk t).view.emb (ix2 (0 : Fin 1) (⟨(j 1).val, (j 1).isLt⟩ : Fin 2048))) = V c main_call0_v1 _
    refine congrArg _ (funext fun a => Fin.ext ?_)
    match a with
    | ⟨0, _⟩ => show win2_2.index t (0 : Fin 2) * 1 + 1 * 0 = 0; omega
    | ⟨1, _⟩ => show win2_2.index t (1 : Fin 2) * 2048 + 1 * (j 1).val = win2_3.index t (1 : Fin 2) * 2048 + 1 * (j 1).val; omega

/-- An index of the output array is in point `t`'s block iff each coordinate is in the block's range. -/
theorem resid_mem (t : Fin cfg2.N) (i : S2048x2048.Idx) :
    i ∈ ((cfg2.win 3).blk t).view.set ↔ ∀ a : Fin 2, win2_3.index t a * S256x2048.size a ≤ (i a).val ∧ (i a).val < win2_3.index t a * S256x2048.size a + S256x2048.size a := by
  show i ∈ ((View.whole main_v0).slice (win2_3.rect t)).set ↔ _
  rw [View.set_slice_whole, Rect.mem_set_unit]
  exact Iff.rfl

/-- Row r lies in the block of point r / 256: the eight blocks cover the array. -/
theorem resid_cover (i : S2048x2048.Idx) : ∃ t : Fin cfg2.N, (cfg2.win 3).flush t = true ∧ i ∈ ((cfg2.win 3).blk t).view.set := by
  have hi0 : (i 0).val < 2048 := (i 0).isLt
  have hi1 : (i 1).val < 2048 := (i 1).isLt
  refine ⟨⟨(i 0).val / 256, by rw [show cfg2.N = 8 from N_2]; omega⟩, flush2_3 _, ?_⟩
  rw [resid_mem]
  obtain ⟨-, -, -, -, -, -, e30, e31⟩ := index2 ⟨(i 0).val / 256, by rw [show cfg2.N = 8 from N_2]; omega⟩
  intro a
  match a with
  | ⟨0, _⟩ =>
    show win2_3.index _ (0 : Fin 2) * 256 ≤ (i 0).val ∧ (i 0).val < win2_3.index _ (0 : Fin 2) * 256 + 256
    rw [e30]; show (i 0).val / 256 * 256 ≤ (i 0).val ∧ (i 0).val < (i 0).val / 256 * 256 + 256; omega
  | ⟨1, _⟩ =>
    show win2_3.index _ (1 : Fin 2) * 2048 ≤ (i 1).val ∧ (i 1).val < win2_3.index _ (1 : Fin 2) * 2048 + 2048
    rw [e31]; omega

/-- THE OUTPUT ARRAY after the launch: x + acc · gamma of the arrays it found. -/
theorem resid_array (c : Dev nD) : (dat2 V c).arrAt 3 cfg2.N = residArr (V c main_arg0) (V c main_call0_v3) (V c main_call0_v1) :=
  (dat2 V c).arrAt_eq_of_cover 3 _ (fun t _ => resid_flushed V c t) (resid_cover)

end Cert.KernelIdeal.Hand

end
-- ==== Proof.Ideal.Value.lean ====
/-
  What the kernel's result buffer holds after the run, on the extended reals: the three launches' whole-array
  functions composed — the gated normalised activations of x, the feed-forward result of those accumulated
  over the 32 hidden blocks, and x plus that result times gamma — over the argument arrays as launched (the two
  weight vectors reshaped into single rows).  At an index (r, d) that is the specification's
  x + [gate] · (feed-forward · gamma): gating the row before the feed-forward is selecting after it, and the
  32 block sums are the one sum.
-/
import proofs.«175990_g24111946400455_cont_8to1_1544_11_alg».proof.Proof.Ideal.Run
import proofs.«175990_g24111946400455_cont_8to1_1544_11_alg».proof.Proof.Ideal.NormRouterValue
import proofs.«175990_g24111946400455_cont_8to1_1544_11_alg».proof.Proof.Ideal.FfnValue
import proofs.«175990_g24111946400455_cont_8to1_1544_11_alg».proof.Proof.Ideal.ResidualValue
import Idealize.ShloMosaic.Lib.StableHlo.Run

set_option maxRecDepth 16384

noncomputable section

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen
open Cert.Spec (normed gate act ffn ffnBlocks)

variable (m : (ℓ : Loc nD τ sig) → Buf (Elt Ideal) ℓ) (ρ : Dev nD → PrngReg)

/-- The two reshapes: the norm weight and gamma as single rows. -/
theorem normRow (c : Dev nD) :
    inA m ρ c main_call0_v0 = shapeCast S1x2048 (m ((c : Thread nD τ).loc main_arg1)) shapeCasts_S2048_S1x2048 := by
  show StableHlo.after hostOps0 (atStart m ρ c) (Proc.devRef .tc main_call0_v0) = _
  after_results
  rfl
theorem gammaRow (c : Dev nD) :
    inA m ρ c main_call0_v1 = shapeCast S1x2048 (m ((c : Thread nD τ).loc main_arg6)) shapeCasts_S2048_S1x2048 := by
  show StableHlo.after hostOps0 (atStart m ρ c) (Proc.devRef .tc main_call0_v1) = _
  after_results
  rfl

/-- THE KERNEL'S RESULT: the three launches composed over the arguments as launched. -/
theorem result_array (c : Dev nD) :
    atD m ρ c (Proc.devRef .tc main_v0)
      = residArr (m ((c : Thread nD τ).loc main_arg0))
          (ffnArr (gatedArr (m ((c : Thread nD τ).loc main_arg0))
              (shapeCast S1x2048 (m ((c : Thread nD τ).loc main_arg1)) shapeCasts_S2048_S1x2048) (m ((c : Thread nD τ).loc main_arg2)))
            (m ((c : Thread nD τ).loc main_arg3)) (m ((c : Thread nD τ).loc main_arg5)) (m ((c : Thread nD τ).loc main_arg4)))
          (shapeCast S1x2048 (m ((c : Thread nD τ).loc main_arg6)) shapeCasts_S2048_S1x2048) := by
  -- the third launch over what it found
  have h2 : atD m ρ c (Proc.devRef .tc main_v0) = residArr (inC m ρ c main_arg0) (inC m ρ c main_call0_v3) (inC m ρ c main_call0_v1) :=
    (atD_arr m ρ c 3).trans (resid_array (inC m ρ) c)
  -- the second launch over what it found
  have h1 : inC m ρ c main_call0_v3 = ffnArr (inB m ρ c main_call0_v2) (inB m ρ c main_arg3) (inB m ρ c main_arg5) (inB m ρ c main_arg4) :=
    (atC_arr m ρ c 4).trans (ffn_array (inB m ρ) c)
  -- the first launch over what it found
  have h0 : inB m ρ c main_call0_v2 = gatedArr (inA m ρ c main_arg0) (inA m ρ c main_call0_v0) (inA m ρ c main_arg2) :=
    (atB_arr m ρ c 3).trans (gated_array (inA m ρ) c)
  -- what reaches each launch untouched
  have a0 : inA m ρ c main_arg0 = m ((c : Thread nD τ).loc main_arg0) := atA_kept m ρ c main_arg0 (by decide)
  have a2 : inA m ρ c main_arg2 = m ((c : Thread nD τ).loc main_arg2) := atA_kept m ρ c main_arg2 (by decide)
  have b3 : inB m ρ c main_arg3 = m ((c : Thread nD τ).loc main_arg3) :=
    (atB_kept m ρ c main_arg3 (by decide)).trans (atA_kept m ρ c main_arg3 (by decide))
  have b4 : inB m ρ c main_arg4 = m ((c : Thread nD τ).loc main_arg4) :=
    (atB_kept m ρ c main_arg4 (by decide)).trans (atA_kept m ρ c main_arg4 (by decide))
  have b5 : inB m ρ c main_arg5 = m ((c : Thread nD τ).loc main_arg5) :=
    (atB_kept m ρ c main_arg5 (by decide)).trans (atA_kept m ρ c main_arg5 (by decide))
  have c0 : inC m ρ c main_arg0 = m ((c : Thread nD τ).loc main_arg0) :=
    (atC_kept m ρ c main_arg0 (by decide)).trans <| (atB_kept m ρ c main_arg0 (by decide)).trans (atA_kept m ρ c main_arg0 (by decide))
  have cg : inC m ρ c main_call0_v1 = inA m ρ c main_call0_v1 :=
    (atC_kept m ρ c main_call0_v1 (by decide)).trans (atB_kept m ρ c main_call0_v1 (by decide))
  rw [h2, h1, h0, a0, a2, b3, b4, b5, c0, cg, normRow, gammaRow]

/-- The composed arrays at an index are the specification's value there. -/
theorem composed_at (X : S2048x2048.Idx → EReal) (NW GA : S2048.Idx → EReal) (RW : S1x2048.Idx → EReal)
    (W1 W3 : S8192x2048.Idx → EReal) (W2 : S2048x8192.Idx → EReal) (h1 h2 : S2048.ShapeCasts S1x2048) (r d : Fin 2048) :
    residArr X (ffnArr (gatedArr X (shapeCast S1x2048 NW h1) RW) W1 W3 W2) (shapeCast S1x2048 GA h2) (ix2 r d)
      = X (ix2 r d) + Scalar.select (gate (fun k => X (ix2 r k)) (fun k => NW (ix1 k)) (fun k => RW (ix2 (0 : Fin 1) k)))
          (ffn (normed (fun k => X (ix2 r k)) (fun k => NW (ix1 k))) (fun h c => W1 (ix2 h c)) (fun h c => W3 (ix2 h c))
              (fun d h => W2 (ix2 d h)) d * GA (ix1 d)) 0 := by
  have hnw : (fun k : Fin 2048 => shapeCast S1x2048 NW h1 (ix2 (0 : Fin 1) k)) = fun k => NW (ix1 k) :=
    funext fun k => shapeCast_a_1a_apply NW h1 0 k
  have hga : shapeCast S1x2048 GA h2 (ix2 (0 : Fin 1) d) = GA (ix1 d) := shapeCast_a_1a_apply GA h2 0 d
  unfold residArr
  rw [ffnArr_eq]
  unfold gatedArr
  show X (ix2 r d) + ffnBlocks (fun c => normed (fun k => X (ix2 r k)) (fun k => shapeCast S1x2048 NW h1 (ix2 (0 : Fin 1) k)) c
      * act (gate (fun k => X (ix2 r k)) (fun k => shapeCast S1x2048 NW h1 (ix2 (0 : Fin 1) k)) (fun k => RW (ix2 (0 : Fin 1) k))))
      (fun h c => W1 (ix2 h c)) (fun h c => W3 (ix2 h c)) (fun d h => W2 (ix2 d h)) d * shapeCast S1x2048 GA h2 (ix2 (0 : Fin 1) d) = _
  rw [hnw, hga]
  exact Cert.Spec.gate_before_is_select_after _ _ _ _ _ _ _ _

end Cert.KernelIdeal.Hand

end
-- ==== Proof.RefValue.lean ====
/-
  The reference read at an index with the specification's words: its normalised row, its gate bit, the two
  inner products, the hidden value, the feed-forward sum, and the final select-and-add — each stage of the
  reference's run rewritten by the generated read-at-an-index lemmas, the indices they compose identified by
  coordinates.  The reference spells the sigmoid out as 1 / (1 + e⁻ˣ), which is the sigmoid's definition on the
  extended reals; its literal 1.0 denotes 1, its literal 0.0 denotes 0.
-/
import proofs.«175990_g24111946400455_cont_8to1_1544_11_alg».proof.Proof.Gen.ReferenceIdeal.Read
import proofs.«175990_g24111946400455_cont_8to1_1544_11_alg».proof.Proof.Spec

set_option maxRecDepth 16384

noncomputable section

namespace Cert.ReferenceIdeal.Hand

open Idealize.ShloMosaic Idealize.ShloMosaic.TcCoe Idealize.ShloMosaic.ValueIdx
open Cert.ReferenceIdeal Cert.ReferenceIdeal.Gen Cert.ReferenceIdeal.Read
open Cert.Spec

/-! ## The composed indices, by coordinates -/

theorem i1 (r k : Fin 2048) : idx_main_v1 (ix1 r) k = ix2 r k :=
  funext fun a => Fin.ext (by match a with | ⟨0, _⟩ => rfl | ⟨1, _⟩ => rfl)
theorem i2 (r : Fin 2048) (u : Fin 1) : idx_main_v2 (ix2 r u) = ix1 r :=
  funext fun a => Fin.ext (by match a with | ⟨0, _⟩ => rfl)
theorem i8 (r c : Fin 2048) : idx_main_v8 (ix2 r c) = ix2 r (0 : Fin 1) :=
  funext fun a => Fin.ext (by match a with | ⟨0, _⟩ => rfl | ⟨1, _⟩ => rfl)
theorem i10 (u : Fin 1) (c : Fin 2048) : idx_main_v10 (ix2 u c) = ix1 c :=
  funext fun a => Fin.ext (by match a with | ⟨0, _⟩ => rfl)
theorem i11 (r c : Fin 2048) : idx_main_v11 (ix2 r c) = ix2 (0 : Fin 1) c :=
  funext fun a => Fin.ext (by match a with | ⟨0, _⟩ => rfl | ⟨1, _⟩ => rfl)
theorem i13 (k : Fin 2048) (u : Fin 1) : idx_main_v13 (ix2 k u) = ix2 u k :=
  funext fun a => Fin.ext (by match a with | ⟨0, _⟩ => rfl | ⟨1, _⟩ => rfl)
theorem l14 (r : Fin 2048) (u : Fin 1) (k : Fin 2048) : lidx_main_v14 (ix2 r u) k = ix2 r k :=
  funext fun a => Fin.ext (by match a with | ⟨0, _⟩ => rfl | ⟨1, _⟩ => rfl)
theorem r14 (r : Fin 2048) (u : Fin 1) (k : Fin 2048) : ridx_main_v14 (ix2 r u) k = ix2 k u :=
  funext fun a => Fin.ext (by match a with | ⟨0, _⟩ => rfl | ⟨1, _⟩ => rfl)
theorem i15 (r : Fin 2048) : idx_main_v15 (ix1 r) = ix2 r (0 : Fin 1) :=
  funext fun a => Fin.ext (by match a with | ⟨0, _⟩ => exact Nat.div_one _ | ⟨1, _⟩ => rfl)
theorem i24 (c : Fin 2048) (h : Fin 8192) : idx_main_v24 (ix2 c h) = ix2 h c :=
  funext fun a => Fin.ext (by match a with | ⟨0, _⟩ => rfl | ⟨1, _⟩ => rfl)
theorem l25 (r : Fin 2048) (h : Fin 8192) (k : Fin 2048) : lidx_main_v25 (ix2 r h) k = ix2 r k :=
  funext fun a => Fin.ext (by match a with | ⟨0, _⟩ => rfl | ⟨1, _⟩ => rfl)
theorem r25 (r : Fin 2048) (h : Fin 8192) (k : Fin 2048) : ridx_main_v25 (ix2 r h) k = ix2 k h :=
  funext fun a => Fin.ext (by match a with | ⟨0, _⟩ => rfl | ⟨1, _⟩ => rfl)
theorem i27 (c : Fin 2048) (h : Fin 8192) : idx_main_v27 (ix2 c h) = ix2 h c :=
  funext fun a => Fin.ext (by match a with | ⟨0, _⟩ => rfl | ⟨1, _⟩ => rfl)
theorem l28 (r : Fin 2048) (h : Fin 8192) (k : Fin 2048) : lidx_main_v28 (ix2 r h) k = ix2 r k :=
  funext fun a => Fin.ext (by match a with | ⟨0, _⟩ => rfl | ⟨1, _⟩ => rfl)
theorem r28 (r : Fin 2048) (h : Fin 8192) (k : Fin 2048) : ridx_main_v28 (ix2 r h) k = ix2 k h :=
  funext fun a => Fin.ext (by match a with | ⟨0, _⟩ => rfl | ⟨1, _⟩ => rfl)
theorem i30 (h : Fin 8192) (d : Fin 2048) : idx_main_v30 (ix2 h d) = ix2 d h :=
  funext fun a => Fin.ext (by match a with | ⟨0, _⟩ => rfl | ⟨1, _⟩ => rfl)
theorem l31 (r d : Fin 2048) (k : Fin 8192) : lidx_main_v31 (ix2 r d) k = ix2 r k :=
  funext fun a => Fin.ext (by match a with | ⟨0, _⟩ => rfl | ⟨1, _⟩ => rfl)
theorem r31 (r d : Fin 2048) (k : Fin 8192) : ridx_main_v31 (ix2 r d) k = ix2 k d :=
  funext fun a => Fin.ext (by match a with | ⟨0, _⟩ => rfl | ⟨1, _⟩ => rfl)
theorem i32 (r : Fin 2048) (u : Fin 1) : idx_main_v32 (ix2 r u) = ix1 r :=
  funext fun a => Fin.ext (by match a with | ⟨0, _⟩ => rfl)
theorem i33 (u : Fin 1) (d : Fin 2048) : idx_main_v33 (ix2 u d) = ix1 d :=
  funext fun a => Fin.ext (by match a with | ⟨0, _⟩ => rfl)
theorem i34 (r d : Fin 2048) : idx_main_v34 (ix2 r d) = ix2 (0 : Fin 1) d :=
  funext fun a => Fin.ext (by match a with | ⟨0, _⟩ => rfl | ⟨1, _⟩ => rfl)
theorem ic (r d : Fin 2048) : idx_main_call1_v0 (ix2 r d) = ix2 r (0 : Fin 1) :=
  funext fun a => Fin.ext (by match a with | ⟨0, _⟩ => rfl | ⟨1, _⟩ => rfl)

variable (x0 : (⟨S2048x2048, .f32⟩ : BufTy).Contents (Elt Ideal)) (x1 : (⟨S2048, .f32⟩ : BufTy).Contents (Elt Ideal)) (x2 : (⟨S1x2048, .f32⟩ : BufTy).Contents (Elt Ideal)) (x3 : (⟨S8192x2048, .f32⟩ : BufTy).Contents (Elt Ideal)) (x4 : (⟨S2048x8192, .f32⟩ : BufTy).Contents (Elt Ideal)) (x5 : (⟨S8192x2048, .f32⟩ : BufTy).Contents (Elt Ideal)) (x6 : (⟨S2048, .f32⟩ : BufTy).Contents (Elt Ideal))

/-! ## The stages -/

/-- The per-row scale. -/
theorem scale_at (r : Fin 2048) (u : Fin 1) :
    val_main_v7 (F := Ideal) x0 (ix2 r u) = rowScale (fun k => x0 (ix2 r k)) := by
  simp only [val_main_v7_apply, val_main_v6_apply, val_main_v4_apply, val_main_v2_apply, i2, val_main_v1_apply, i1,
    val_main_v0_apply, val_main_v3_apply, val_main_v5_apply, val_main_cst_apply, val_main_cst_0_apply, val_main_cst_1_apply,
    Ideal.hostUnary_rsqrt_def, Ideal.hostDivf_def, Ideal.addf_def, Ideal.mulf_def, Ideal.ofBits_def, Ideal.ofBits_zero_f32, zero_add]
  rfl

/-- The normalised row. -/
theorem norm_at (r c : Fin 2048) :
    val_main_v12 (F := Ideal) x0 x1 (ix2 r c) = normed (fun k => x0 (ix2 r k)) (fun k => x1 (ix1 k)) c := by
  simp only [val_main_v12_apply, val_main_v9_apply, val_main_v8_apply, i8, scale_at, val_main_v11_apply, i11,
    val_main_v10_apply, i10, Ideal.mulf_def]
  rfl

/-- The gate bit. -/
theorem gate_at (r : Fin 2048) :
    val_main_v23 (F := Ideal) x0 x1 x2 (ix1 r)
      = gate (fun k => x0 (ix2 r k)) (fun k => x1 (ix1 k)) (fun k => x2 (ix2 (0 : Fin 1) k)) := by
  simp only [val_main_v23_apply, val_main_v21_apply, val_main_v20_apply, val_main_cst_3_apply, val_main_v19_apply,
    val_main_v18_apply, val_main_cst_2_apply, val_main_v17_apply, val_main_v16_apply, val_main_v15_apply, i15,
    val_main_v14_apply, l14, r14, norm_at, val_main_v13_apply, i13, val_main_v22_apply, val_main_cst_4_apply,
    Ideal.cmpf_def, Ideal.hostDivf_def, Ideal.addf_def, Ideal.hostUnary_exp_def, Ideal.hostNegf_def, Ideal.negf_def,
    Ideal.ofBits_def, one_bits]
  rfl

/-- The two inner products against the (transposed) weight matrices. -/
theorem pre1_at (r : Fin 2048) (h : Fin 8192) :
    val_main_v25 (F := Ideal) x0 x1 x3 (ix2 r h)
      = pre (normed (fun k => x0 (ix2 r k)) (fun k => x1 (ix1 k))) (fun h c => x3 (ix2 h c)) h := by
  simp only [val_main_v25_apply, l25, r25, norm_at, val_main_v24_apply, i24]
  rfl
theorem pre3_at (r : Fin 2048) (h : Fin 8192) :
    val_main_v28 (F := Ideal) x0 x1 x5 (ix2 r h)
      = pre (normed (fun k => x0 (ix2 r k)) (fun k => x1 (ix1 k))) (fun h c => x5 (ix2 h c)) h := by
  simp only [val_main_v28_apply, l28, r28, norm_at, val_main_v27_apply, i27]
  rfl

/-- The hidden value. -/
theorem hid_at (r : Fin 2048) (h : Fin 8192) :
    val_main_v29 (F := Ideal) x0 x1 x3 x5 (ix2 r h)
      = hid (normed (fun k => x0 (ix2 r k)) (fun k => x1 (ix1 k))) (fun h c => x3 (ix2 h c)) (fun h c => x5 (ix2 h c)) h := by
  simp only [val_main_v29_apply, val_main_v26_apply, val_main_call0_v5_apply, val_main_call0_v4_apply, val_main_call0_cst_0_apply,
    val_main_call0_v3_apply, val_main_call0_v2_apply, val_main_call0_cst_apply, val_main_call0_v1_apply, val_main_call0_v0_apply,
    pre1_at, pre3_at, Ideal.mulf_def, Ideal.hostDivf_def, Ideal.addf_def, Ideal.hostUnary_exp_def, Ideal.hostNegf_def,
    Ideal.negf_def, Ideal.ofBits_def, one_bits]
  rfl

/-- The feed-forward sum. -/
theorem ffn_at (r d : Fin 2048) :
    val_main_v31 (F := Ideal) x0 x1 x3 x4 x5 (ix2 r d)
      = ffn (normed (fun k => x0 (ix2 r k)) (fun k => x1 (ix1 k))) (fun h c => x3 (ix2 h c)) (fun h c => x5 (ix2 h c))
          (fun d h => x4 (ix2 d h)) d := by
  simp only [val_main_v31_apply, l31, r31, hid_at, val_main_v30_apply, i30]
  rfl

/-- THE REFERENCE'S RESULT at (r, d): x plus, on an active row, the feed-forward result times gamma. -/
theorem result_at (r d : Fin 2048) :
    val_main_v37 (F := Ideal) x0 x1 x2 x3 x4 x5 x6 (ix2 r d)
      = x0 (ix2 r d) + Scalar.select (gate (fun k => x0 (ix2 r k)) (fun k => x1 (ix1 k)) (fun k => x2 (ix2 (0 : Fin 1) k)))
          (ffn (normed (fun k => x0 (ix2 r k)) (fun k => x1 (ix1 k))) (fun h c => x3 (ix2 h c)) (fun h c => x5 (ix2 h c))
              (fun d h => x4 (ix2 d h)) d * x6 (ix1 d)) 0 := by
  simp only [val_main_v37_apply, val_main_v36_apply, val_main_call1_v0_apply, ic, val_main_v32_apply, i32, gate_at,
    val_main_v35_apply, ffn_at, val_main_v34_apply, i34, val_main_v33_apply, i33, val_main_call1_v1_apply, val_main_cst_5_apply,
    Ideal.addf_def, Ideal.mulf_def, Ideal.ofBits_def, Ideal.ofBits_zero_f32]

end Cert.ReferenceIdeal.Hand

end
-- ==== Proof.lean ====
/-
  The certificate of a fused mixture-of-depths block, in three launches, against its plain reference.

  Both programs compute, for every token row r and lane d,
      out(r, d) = x(r, d) + [ sigmoid(logit(r)) > threshold ] · ( ffn(normed(r))(d) · gamma(d) ),
  where normed(r) is row r of x scaled by the reciprocal root of its mean square plus epsilon and by the norm
  weight, logit(r) its inner product with the router weight, and ffn the SwiGLU feed-forward
  (u · sigmoid(u) · v against w2 over 8192 hidden units).  The reference applies the gate LAST, by a select;
  the kernel applies it FIRST, by zeroing the inactive rows of the normalised activations, runs the feed-forward
  on those, accumulating the last product over 32 blocks of 256 hidden units, and adds x.  On the extended reals
  these agree: a zero row gives zero inner products, zero hidden values and a zero result (0 · w = 0 for every w),
  a row times 1 is itself, and 32 block sums regroup one sum.  The two sigmoids are one function (the reference
  spells it 1 / (1 + e⁻ˣ), which is its definition), and every format change is the identity.  Nothing here needs
  the inputs to be finite.

  The three frames: each program terminates without fault and leaves its arguments as launched — for the two
  kernel programs from the run of their four segments (two reshapes, three launches), for the reference from its
  run as a list of host operations.  No idealization rule rewrote the kernel, so the preservation conjunct is trivial.
-/
import proofs.«175990_g24111946400455_cont_8to1_1544_11_alg».proof.Defs
import proofs.«175990_g24111946400455_cont_8to1_1544_11_alg».proof.Proof.Gen.Kernel
import proofs.«175990_g24111946400455_cont_8to1_1544_11_alg».proof.Proof.Gen.KernelIdeal
import proofs.«175990_g24111946400455_cont_8to1_1544_11_alg».proof.Proof.Gen.ReferenceIdeal
import proofs.«175990_g24111946400455_cont_8to1_1544_11_alg».proof.Proof.Gen.ReferenceIdeal.Run
import proofs.«175990_g24111946400455_cont_8to1_1544_11_alg».proof.Proof.Gen.ReferenceIdeal.Read
import proofs.«175990_g24111946400455_cont_8to1_1544_11_alg».proof.Proof.Gen.Pre_finite_inputs
import proofs.«175990_g24111946400455_cont_8to1_1544_11_alg».proof.Proof.Bits.Run
import proofs.«175990_g24111946400455_cont_8to1_1544_11_alg».proof.Proof.Ideal.Run
import proofs.«175990_g24111946400455_cont_8to1_1544_11_alg».proof.Proof.Ideal.Value
import proofs.«175990_g24111946400455_cont_8to1_1544_11_alg».proof.Proof.RefValue

noncomputable section

namespace Cert.Proof

open Idealize.ShloMosaic Idealize.ShloMosaic.TcCoe Idealize.ShloMosaic.ValueIdx Idealize.SL.Sem

/-- The word-level kernel runs and leaves its arguments as launched. -/
theorem frame_kernel : Cert.frame_Kernel := fun m ρ _ => Cert.Kernel.Hand.frame m ρ

/-- So does the idealized kernel. -/
theorem frame_kernel_ideal : Cert.frame_KernelIdeal := fun m ρ _ => Cert.KernelIdeal.Hand.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No idealization rule rewrote the kernel. -/
theorem preserves : Cert.preserves_Kernel_KernelIdeal := trivial

/-- On the extended reals the kernel's result and the reference's are one array. -/
theorem algebraic : Cert.algebraic_KernelIdeal_ReferenceIdeal := by
  intro m ρ m' ρ' _ hagree
  refine ⟨fun c => Cert.KernelIdeal.Hand.atD m ρ c (Proc.devRef .tc Cert.KernelIdeal.main_v0), ?_, ?_⟩
  · exact (θ_run Cert.KernelIdeal.defs _ _).mono (fun r h c =>
      ⟨h c _ (Cert.KernelIdeal.Hand.mem_uc Cert.KernelIdeal.main_v0 (by decide)),
       (h c _ (Cert.KernelIdeal.Hand.mem_uc Cert.KernelIdeal.main_arg0 (by decide))).trans (Cert.KernelIdeal.Hand.atD_untouched m ρ c Cert.KernelIdeal.main_arg0 (by decide) (by decide) (by decide) (by decide)),
       (h c _ (Cert.KernelIdeal.Hand.mem_uc Cert.KernelIdeal.main_arg1 (by decide))).trans (Cert.KernelIdeal.Hand.atD_untouched m ρ c Cert.KernelIdeal.main_arg1 (by decide) (by decide) (by decide) (by decide)),
       (h c _ (Cert.KernelIdeal.Hand.mem_uc Cert.KernelIdeal.main_arg2 (by decide))).trans (Cert.KernelIdeal.Hand.atD_untouched m ρ c Cert.KernelIdeal.main_arg2 (by decide) (by decide) (by decide) (by decide)),
       (h c _ (Cert.KernelIdeal.Hand.mem_uc Cert.KernelIdeal.main_arg3 (by decide))).trans (Cert.KernelIdeal.Hand.atD_untouched m ρ c Cert.KernelIdeal.main_arg3 (by decide) (by decide) (by decide) (by decide)),
       (h c _ (Cert.KernelIdeal.Hand.mem_uc Cert.KernelIdeal.main_arg4 (by decide))).trans (Cert.KernelIdeal.Hand.atD_untouched m ρ c Cert.KernelIdeal.main_arg4 (by decide) (by decide) (by decide) (by decide)),
       (h c _ (Cert.KernelIdeal.Hand.mem_uc Cert.KernelIdeal.main_arg5 (by decide))).trans (Cert.KernelIdeal.Hand.atD_untouched m ρ c Cert.KernelIdeal.main_arg5 (by decide) (by decide) (by decide) (by decide)),
       (h c _ (Cert.KernelIdeal.Hand.mem_uc Cert.KernelIdeal.main_arg6 (by decide))).trans (Cert.KernelIdeal.Hand.atD_untouched m ρ c Cert.KernelIdeal.main_arg6 (by decide) (by decide) (by decide) (by decide))⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v37_eq, e0, e1, e2, e3, e4, e5, e6]
    refine Eq.trans ?_ (Cert.KernelIdeal.Hand.result_array m ρ c).symm
    refine funext fun i => ?_
    obtain ⟨r, d, rfl⟩ : ∃ (r d : Fin 2048), i = ix2 r d := ⟨i 0, i 1, eq_ix2 i⟩
    exact (Cert.ReferenceIdeal.Hand.result_at _ _ _ _ _ _ _ r d).trans
      (Cert.KernelIdeal.Hand.composed_at _ _ _ _ _ _ _ _ _ r d).symm

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
